-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_cst_2 : FVec F S_ .f32 := constant S_ .f32 0x00000000#32
  let main_v9 : FVec F S16384x1024 .f32 := broadcastInDim S16384x1024 ![] bcast_S_S16384x1024 main_cst_2
  let main_v10 : IVec S16384x1024 1 := cmpf .oeq main_arg1 main_v9
  let main_cst_3 : FVec F S_ .f32 := constant S_ .f32 0x3F800000#32
  let main_v11 : FVec F S16384x1024 .f32 := broadcastInDim S16384x1024 ![] bcast_S_S16384x1024 main_cst_3
  let main_v12 : IVec S16384x1024 1 := cmpf .oeq main_arg1 main_v11
  let main_v13 : IVec S16384x1024 1 := ori main_v10 main_v12
  let main_c_4 : IVec S_ 1 := constantI S_ 1 1#1
  let main_v14 : IVec S_ 1 := (fun x v => Host.reduce IntOp.andi x v reducesTo_S16384x1024_S_d0_1 h_S_) main_v13 main_c_4
  let main_v15 : IVec S_ 1 := andi main_v8 main_v14
  main_v15
-- ==== Kernel.lean ====
abbrev S16384x1024 : Shape := ⟨2, ![16384, 1024]⟩
abbrev S16x1024 : Shape := ⟨2, ![16, 1024]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S1 : Shape := ⟨1, ![1]⟩

abbrev nBuf : Space → Nat
  | .hbm => 56
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16x1024, .f32⟩
  | .hbm, ⟨3, _⟩ => ⟨S16x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S1, .i32⟩
  | .hbm, ⟨24, _⟩ => ⟨S1024, .f32⟩
  | .hbm, ⟨25, _⟩ => ⟨S_, .i32⟩
  | .hbm, ⟨26, _⟩ => ⟨S1, .i32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  inb_S8x1024_S8x1024_0_0 : ∀ a, (![0, 0] : Fin 2 → Nat) a + S8x1024.size a ≤ S8x1024.size a
  h_S8x1024 : 0 < S8x1024.numel
  inb_S8x1024_S1x1024_0_0 : ∀ a, (![0, 0] : Fin 2 → Nat) a + S1x1024.size a ≤ S8x1024.size a
  slices_S16x1024_S1x1024_0_0 : S16x1024.Slices ![0, 0] S1x1024
  shapeCasts_S1x1024_S1024 : S1x1024.ShapeCasts S1024
  slices_S16x1024_S1x1024_8_0 : S16x1024.Slices ![8, 0] S1x1024
  reducesTo_S1024_S_d0 : S1024.ReducesTo [0] S_
  h_S_ : 0 < S_.numel
  bcast_S_S1024 : S_.BroadcastsInDim S1024 (![] : Fin 0 → Fin S1024.rank)
  bcast_S_S1 : S_.BroadcastsInDim S1 (![] : Fin 0 → Fin S1.rank)
  scatter_S1024_S1_S__n_0_0_0_wf : ScatterDims.WF S1024 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x1024.size a
  hwx0_2 : ∀ i : grid0.Coords, EltTy.bits .f32 = 32 ∨ (Rect.block (s := S16x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)

variable [Facts₀]

def scatter_S1024_S1_S__n_0_0_0 : ScatterDims S1024 S1 S_ where
  updateWindowDims := []
  insertedWindowDims := [0]
  scatterDimsToOperandDims := [0]
  indexVectorDim := 0
  wf := scatter_S1024_S1_S__n_0_0_0_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16777216 : Shape := ⟨1, ![16777216]⟩
abbrev S_ : Shape := ⟨0, ![]⟩
abbrev S1024 : Shape := ⟨1, ![1024]⟩
abbrev S16777216x1 : Shape := ⟨2, ![16777216, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .i32⟩
  | .hbm, ⟨3, _⟩ => ⟨S16777216, .i32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S1024, .f32⟩
  | .hbm, ⟨8, _⟩ => ⟨S16777216x1, .i32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .i1⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  shapeCasts_S16384x1024_S16777216 : S16384x1024.ShapeCasts S16777216
  bcast_S_S16777216 : S_.BroadcastsInDim S16777216 (![] : Fin 0 → Fin S16777216.rank)
  bcast_S_S1024 : S_.BroadcastsInDim S1024 (![] : Fin 0 → Fin S1024.rank)
  bcast_S16777216_S16777216x1_0 : S16777216.BroadcastsInDim S16777216x1 (![0] : Fin 1 → Fin S16777216x1.rank)
  reducesTo_S1024_S_d0 : S1024.ReducesTo [0] S_
  h_S_ : 0 < S_.numel
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S_d0_1 : S16384x1024.ReducesTo [0, 1] S_
  scatter_S1024_S16777216x1_S16777216_n_0_0_1_wf : ScatterDims.WF S1024 S16777216x1 S16777216 [] [0] [0] 1

variable [Facts₀]

def scatter_S1024_S16777216x1_S16777216_n_0_0_1 : ScatterDims S1024 S16777216x1 S16777216 where
  updateWindowDims := []
  insertedWindowDims := [0]
  scatterDimsToOperandDims := [0]
  indexVectorDim := 1
  wf := scatter_S1024_S16777216x1_S16777216_n_0_0_1_wf

class Facts : Prop extends Facts₀ where

variable [Facts]
-- ==== Proof.Pieces.lean ====
/-
  What one run of the kernel body leaves behind, case by case, as values.

  The body keeps two rows of 1024 numbers between grid points.  At a point it (first point of a half only) resets
  both rows to zero, then adds to the first row the column sums of the block's focal terms and to the second the
  column sums of the block's labels; at the last point of a half it also fills the two 8-row output blocks with
  zeros and copies each row into row 0 of its block.  So whatever the rows held before (`xs0`, `xs1`; zero after a
  reset), afterwards they hold `k0_pay6 x0 x1 xs0` and `k0_pay1 (k0_pay7 x1 xs1)` of the two input blocks
  `x0`, `x1`, and row 0 of each output block holds the same.
-/
import proofs.«118615_j52853867545034_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Pieces

open Cert.KernelIdeal Cert.KernelIdeal.Gen

variable {F : FTy → Type} [FloatOps F]

/-- Zero offsets, however they are spelt. -/
theorem hz : (![0, 0] : Fin 2 → Nat) = fun _ => 0 := funext fun a => by fin_cases a <;> rfl

/-- A middle point: the focal row gains the block's column sums. -/
theorem rowS_mid (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : ¬cond0_1 i)
    (x0 x1 : Vec F S1024x1024 .f32) (xs0 xs1 : Vec F S1x1024 .f32) :
    sout0_B_0 c i arg2 harg2 arg3 harg3 arg4 harg4 arg5 harg5 arg6 harg6 arg7 harg7 hc0 hc1 x0 x1 xs0 xs1 = k0_pay6 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz]
  simp only [View.readAt_eq_ld, harg2.read_unread, harg3.read_unread, harg6.read_unread,
    View.ld_unit_zero (S := S1024x1024) hz, View.ld_unit_zero (S := S1x1024) hz]

/-- A middle point: the label row gains the block's column sums. -/
theorem rowT_mid (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : ¬cond0_1 i)
    (x0 x1 : Vec F S1024x1024 .f32) (xs0 xs1 : Vec F S1x1024 .f32) :
    sout0_B_1 c i arg2 harg2 arg3 harg3 arg4 harg4 arg5 harg5 arg6 harg6 arg7 harg7 hc0 hc1 x0 x1 xs0 xs1 = k0_pay1 (k0_pay7 x1 xs1) := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz]
  simp only [View.readAt_eq_ld, harg3.read_unread, harg7.read_unread,
    View.ld_unit_zero (S := S1024x1024) hz, View.ld_unit_zero (S := S1x1024) hz]

/-- The first point of a half: the focal row restarts from zero. -/
theorem rowS_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : cond0_0 i) (hc1 : ¬cond0_1 i)
    (x0 x1 : Vec F S1024x1024 .f32) :
    sout0_A_0 c i arg2 harg2 arg3 harg3 arg4 harg4 arg5 harg5 arg6 harg6 arg7 harg7 hc0 hc1 x0 x1 = k0_pay6 x0 x1 k0_pay4 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1024) hz, View.readCov_unit_zero (S := S1x1024) _ hz]
  simp only [View.readAt_eq_ld, harg2.read_unread, harg3.read_unread,
    View.ld_unit_zero (S := S1024x1024) hz]

/-- The first point of a half: the label row restarts from zero. -/
theorem rowT_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : cond0_0 i) (hc1 : ¬cond0_1 i)
    (x0 x1 : Vec F S1024x1024 .f32) :
    sout0_A_1 c i arg2 harg2 arg3 harg3 arg4 harg4 arg5 harg5 arg6 harg6 arg7 harg7 hc0 hc1 x0 x1 = k0_pay1 (k0_pay7 x1 k0_pay5) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1024) hz, View.readCov_unit_zero (S := S1x1024) _ hz]
  simp only [View.readAt_eq_ld, harg3.read_unread, View.ld_unit_zero (S := S1024x1024) hz]

/-- The last point of a half: the focal row gains the block's column sums, as at a middle point. -/
theorem rowS_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 x1 : Vec F S1024x1024 .f32) (xs0 xs1 : Vec F S1x1024 .f32) :
    sout0_C_0 c i arg2 harg2 arg3 harg3 arg4 harg4 arg5 harg5 arg6 harg6 arg7 harg7 hc0 hc1 x0 x1 xs0 xs1 = k0_pay6 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg2.read_unread, harg3.read_unread, harg6.read_unread,
    View.ld_unit_zero (S := S1024x1024) hz, View.ld_unit_zero (S := S1x1024) hz]

/-- The last point of a half: the label row likewise. -/
theorem rowT_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 x1 : Vec F S1024x1024 .f32) (xs0 xs1 : Vec F S1x1024 .f32) :
    sout0_C_1 c i arg2 harg2 arg3 harg3 arg4 harg4 arg5 harg5 arg6 harg6 arg7 harg7 hc0 hc1 x0 x1 xs0 xs1 = k0_pay1 (k0_pay7 x1 xs1) := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg3.read_unread, harg7.read_unread,
    View.ld_unit_zero (S := S1024x1024) hz, View.ld_unit_zero (S := S1x1024) hz]

/-- Row 0 of an 8-row block is where the one-row rectangle at zero offsets puts its row. -/
theorem row0_emb (k : Fin 1024) :
    (ix2 (0 : Fin 8) k : S8x1024.Idx)
      = (Rect.unit (s := S8x1024) ![0, 0] S1x1024.size inb_S8x1024_S1x1024_0_0).emb (ix2 (0 : Fin 1) k) := by
  funext a
  apply Fin.ext
  rw [Rect.emb_apply]
  match a with
  | ⟨0, _⟩ => rfl
  | ⟨1, _⟩ => show k.val = 0 + 1 * k.val; omega

/-- The last point of a half: row 0 of the focal output block is the focal row just computed. -/
theorem outS_row0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 x1 : Vec F S1024x1024 .f32) (xs0 xs1 : Vec F S1x1024 .f32) (k : Fin 1024) :
    out0_C_2 c i arg2 harg2 arg3 harg3 arg4 harg4 arg5 harg5 arg6 harg6 arg7 harg7 hc0 hc1 x0 x1 xs0 xs1 (ix2 (0 : Fin 8) k) = k0_pay6 x0 x1 xs0 (ix2 (0 : Fin 1) k) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [row0_emb k, View.canon_cons_emb, View.readCov_unit_zero (S := S1x1024) _ hz]
  simp only [View.readAt_eq_ld, harg2.read_unread, harg3.read_unread, harg6.read_unread,
    View.ld_unit_zero (S := S1024x1024) hz, View.ld_unit_zero (S := S1x1024) hz]

/-- The last point of a half: row 0 of the label output block is the label row just computed. -/
theorem outT_row0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 x1 : Vec F S1024x1024 .f32) (xs0 xs1 : Vec F S1x1024 .f32) (k : Fin 1024) :
    out0_C_3 c i arg2 harg2 arg3 harg3 arg4 harg4 arg5 harg5 arg6 harg6 arg7 harg7 hc0 hc1 x0 x1 xs0 xs1 (ix2 (0 : Fin 8) k) = k0_pay1 (k0_pay7 x1 xs1) (ix2 (0 : Fin 1) k) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [row0_emb k, View.canon_cons_emb, View.readCov_unit_zero (S := S1x1024) _ hz]
  simp only [View.readAt_eq_ld, harg3.read_unread, harg7.read_unread,
    View.ld_unit_zero (S := S1024x1024) hz, View.ld_unit_zero (S := S1x1024) hz]

end Cert.KernelIdeal.Pieces

end
-- ==== Proof.Loss.lean ====
/-
  The class-balanced focal loss, as one function of the two argument arrays.

  For logits `x` and binary labels `t` the stable binary cross entropy is
  `bce x t = max x 0 - x * t + log (1 + exp (-|x|))`, the focal term is `½ · (1 - exp (-bce))² · bce`, and class `c`
  is weighted by `w c`, a fixed function (`weights`) of the vector of per-class label counts.  With labels in {0, 1}
  only classes 0 and 1 occur: class 1 is counted by the sum of all labels and class 0 by the number of entries minus
  that sum (`counts`).  The mean loss is `(∑ c, w c * ∑ n, loss (x n c) (t n c)) / 2²⁴` (`mid`): both programs
  are shown to compute this number.
-/
import Idealize.ShloMosaic.PureOps.Ideal
import Idealize.ShloMosaic.PureOps.Ideal.Laws
import Idealize.ShloMosaic.PureOps.Vector
import Idealize.ShloMosaic.Lib.ValueIdx

noncomputable section

open scoped BigOperators

namespace Cert.Focal

open Idealize.ShloMosaic Idealize.ShloMosaic.ValueIdx

/-- The shape of the two argument arrays: 16384 samples by 1024 classes. -/
abbrev Sxt : Shape := ⟨2, ![16384, 1024]⟩
/-- One value per class. -/
abbrev Scls : Shape := ⟨1, ![1024]⟩
/-- A scalar. -/
abbrev Ssc : Shape := ⟨0, ![]⟩

/-- The literals of the two programs, kept as their binary words. -/
abbrev zeroL : EReal := Ideal.ofBits .f32 0x00000000#32
abbrev halfL : EReal := Ideal.ofBits .f32 0x3F000000#32
abbrev oneL : EReal := Ideal.ofBits .f32 0x3F800000#32
abbrev twoL : EReal := Ideal.ofBits .f32 0x40000000#32
/-- The number of entries, 2²⁴, as both programs spell it. -/
abbrev n24 : EReal := Ideal.ofBits .f32 0x4B800000#32

/-- The stable binary cross entropy with logits: `max x 0 - x t + log (1 + exp (-|x|))`. -/
def bce (x t : EReal) : EReal := (max x 0 - x * t) + Ideal.log1p (Ideal.exp (-(max x (-x))))

/-- One minus the probability of the true label. -/
def om (x t : EReal) : EReal := oneL - Ideal.exp (-(bce x t))

/-- The focal term of one entry, as the kernel computes it: `½ · om² · bce` with the square a product. -/
def loss (x t : EReal) : EReal := (halfL * (om x t * om x t)) * bce x t

/-- The weighted focal term of one entry, as the reference computes it: the class weight first, the square a power. -/
def lossW (w x t : EReal) : EReal := ((w * halfL) * Ideal.pow (om x t) twoL) * bce x t

/-- The class weights from the per-class counts: `(1 - β) / e c` with `e c = 10⁻⁶` where the count is zero and
    `1 - β ^ count` elsewhere, normalised to sum to the number of classes.  Both programs apply exactly these
    operations to their count vector; the proof never looks inside. -/
def weights (hb : Ssc.BroadcastsInDim Scls (![] : Fin 0 → Fin Scls.rank)) (hr : Scls.ReducesTo [0] Ssc)
    (h0 : 0 < Ssc.numel) (cnt : FVec Ideal Scls .f32) : FVec Ideal Scls .f32 :=
  mulf
    (Host.divf
      (Host.divf (broadcastInDim Scls ![] hb (constant Ssc .f32 0x38D1B717#32))
        (select (cmpf .oeq cnt (broadcastInDim Scls ![] hb (constant Ssc .f32 0x00000000#32)))
          (broadcastInDim Scls ![] hb (id (constant Ssc .f32 0x358637BD#32)))
          (subf (broadcastInDim Scls ![] hb (constant Ssc .f32 0x3F800000#32))
            (Host.powf (broadcastInDim Scls ![] hb (constant Ssc .f32 0x3F7FF972#32)) cnt))))
      (broadcastInDim Scls ![] hb
        (Host.reduceAdd
          (Host.divf (broadcastInDim Scls ![] hb (constant Ssc .f32 0x38D1B717#32))
            (select (cmpf .oeq cnt (broadcastInDim Scls ![] hb (constant Ssc .f32 0x00000000#32)))
              (broadcastInDim Scls ![] hb (id (constant Ssc .f32 0x358637BD#32)))
              (subf (broadcastInDim Scls ![] hb (constant Ssc .f32 0x3F800000#32))
                (Host.powf (broadcastInDim Scls ![] hb (constant Ssc .f32 0x3F7FF972#32)) cnt))))
          (constant Ssc .f32 0x00000000#32) hr h0)))
    (broadcastInDim Scls ![] hb (constant Ssc .f32 0x44800000#32))

/-- The sum of class `c`'s focal terms over all samples. -/
def colLoss (X T : Sxt.Idx → EReal) (c : Fin 1024) : EReal :=
  ∑ n : Fin 16384, loss (X (ix2 n c)) (T (ix2 n c))

/-- The sum of all labels: with labels in {0, 1}, the number of ones. -/
def onesTotal (T : Sxt.Idx → EReal) : EReal := ∑ c : Fin 1024, ∑ n : Fin 16384, T (ix2 n c)

/-- The per-class counts of binary labels: zeros, ones, and nothing in any other class. -/
def counts (T : Sxt.Idx → EReal) : FVec Ideal Scls .f32 := fun i =>
  if (i 0).val = 0 then n24 - onesTotal T else if (i 0).val = 1 then onesTotal T else 0

/-- The mean class-balanced focal loss. -/
def mid (hb : Ssc.BroadcastsInDim Scls (![] : Fin 0 → Fin Scls.rank)) (hr : Scls.ReducesTo [0] Ssc)
    (h0 : 0 < Ssc.numel) (X T : Sxt.Idx → EReal) : FVec Ideal Ssc .f32 := fun _ =>
  Ideal.div (0 + ∑ c : Fin 1024, weights hb hr h0 (counts T) (ix1 c) * colLoss X T c) n24

end Cert.Focal

end
-- ==== Proof.Partials.lean ====
/-
  What the kernel hands to the host: per half of the samples, the column sums of the focal terms and of the labels.

  The grid has 16 points; point `t` loads rows `1024 t … 1024 t + 1023` of both arrays (`blockAt`).  Two rows of
  1024 values are carried from point to point: `accS` adds the block's column sums of the focal term, `accT` the
  block's column sums of the labels; both restart from zero at points 0 and 8, so after points 7 and 15 they hold
  the column sums over samples 0–8191 and 8192–16383.  Those two rows land in rows 0 and 8 of the two output
  arrays, and the host's last lines (`tailTerm`) add the halves, form the counts and weights, and take the
  weighted mean.
-/
import proofs.«118615_j52853867545034_2_alg».proof.Proof.Gen.KernelIdeal.Skeleton
import proofs.«118615_j52853867545034_2_alg».proof.Proof.Loss

noncomputable section

open scoped BigOperators

namespace Cert.Focal

open Idealize.ShloMosaic Idealize.ShloMosaic.TcCoe Idealize.ShloMosaic.ValueIdx Cert.KernelIdeal Cert.KernelIdeal.Gen

/-- The block of an argument array that grid point `t` loads: rows `1024 t` to `1024 t + 1023`, all columns.
    (The row is taken modulo 16384 only so that the definition needs no bound on `t`; for `t < 16` it is the row.) -/
def blockAt (A : Sxt.Idx → EReal) (t : ℕ) : FVec Ideal S1024x1024 .f32 := fun y =>
  A (ix2 ⟨(1024 * t + (y 0).val) % 16384, Nat.mod_lt _ (by norm_num)⟩ ⟨(y 1).val, (y 1).isLt⟩)

/-- The carried row of focal column sums after grid point `t`: restarted from zero at the first point of each
    half, otherwise the row the previous point left, plus this block's column sums. -/
def accS (X T : Sxt.Idx → EReal) : ℕ → FVec Ideal S1x1024 .f32
  | 0 => k0_pay6 (F := Ideal) (blockAt X 0) (blockAt T 0) (k0_pay4 (F := Ideal))
  | n + 1 =>
    if (n + 1) % 8 = 0 then k0_pay6 (F := Ideal) (blockAt X (n + 1)) (blockAt T (n + 1)) (k0_pay4 (F := Ideal))
    else k0_pay6 (F := Ideal) (blockAt X (n + 1)) (blockAt T (n + 1)) (accS X T n)

/-- The carried row of label column sums after grid point `t`, likewise. -/
def accT (T : Sxt.Idx → EReal) : ℕ → FVec Ideal S1x1024 .f32
  | 0 => k0_pay1 (F := Ideal) (k0_pay7 (F := Ideal) (blockAt T 0) (k0_pay5 (F := Ideal)))
  | n + 1 =>
    if (n + 1) % 8 = 0 then k0_pay1 (F := Ideal) (k0_pay7 (F := Ideal) (blockAt T (n + 1)) (k0_pay5 (F := Ideal)))
    else k0_pay1 (F := Ideal) (k0_pay7 (F := Ideal) (blockAt T (n + 1)) (accT T n))

/-- Row 0 plus row 8 of a 16-row output: the two halves' column sums added. -/
def rowsAdded (A : FVec Ideal S16x1024 .f32) : FVec Ideal S1024 .f32 :=
  addf (shapeCast S1024 (extractStridedSlice S1x1024 ![0, 0] A slices_S16x1024_S1x1024_0_0) shapeCasts_S1x1024_S1024)
    (shapeCast S1024 (extractStridedSlice S1x1024 ![8, 0] A slices_S16x1024_S1x1024_8_0) shapeCasts_S1x1024_S1024)

/-- The sum of all labels as the host forms it: the sum of row 0 plus the sum of row 8 of the label output. -/
def onesHost (B : FVec Ideal S16x1024 .f32) : FVec Ideal S_ .f32 :=
  addf
    (Host.reduceAdd (shapeCast S1024 (extractStridedSlice S1x1024 ![0, 0] B slices_S16x1024_S1x1024_0_0) shapeCasts_S1x1024_S1024)
      (constant S_ .f32 0x00000000#32) reducesTo_S1024_S_d0 h_S_)
    (Host.reduceAdd (shapeCast S1024 (extractStridedSlice S1x1024 ![8, 0] B slices_S16x1024_S1x1024_8_0) shapeCasts_S1x1024_S1024)
      (constant S_ .f32 0x00000000#32) reducesTo_S1024_S_d0 h_S_)

/-- The host's count vector: zero everywhere, then entry 0 set to `2²⁴ - ones` and entry 1 set to `ones`. -/
def countsHost (B : FVec Ideal S16x1024 .f32) : FVec Ideal S1024 .f32 :=
  Host.scatter scatter_S1024_S1_S__n_0_0_0 (fun _ b => b)
    (Host.scatter scatter_S1024_S1_S__n_0_0_0 (fun _ b => b)
      (broadcastInDim S1024 ![] bcast_S_S1024 (constant S_ .f32 0x00000000#32))
      (broadcastInDim S1 ![] bcast_S_S1 (constantI S_ 32 0#32))
      (subf (constant S_ .f32 0x4B800000#32) (onesHost B)))
    (broadcastInDim S1 ![] bcast_S_S1 (constantI S_ 32 1#32))
    (onesHost B)

/-- The host's last lines, from the two outputs to the result: the weighted mean of the column sums. -/
def tailTerm (A B : FVec Ideal S16x1024 .f32) : FVec Ideal S_ .f32 :=
  Host.divf
    (Host.reduceAdd (mulf (weights bcast_S_S1024 reducesTo_S1024_S_d0 h_S_ (countsHost B)) (rowsAdded A))
      (constant S_ .f32 0x00000000#32) reducesTo_S1024_S_d0 h_S_)
    (constant S_ .f32 0x4B800000#32)

end Cert.Focal

end
-- ==== Proof.Rows.lean ====
/-
  The two carried rows, point by point, and where they end up.

  Grid point `t` (0 ≤ t < 16) loads row block `t` of the logits and of the labels.  By induction on the point, the
  carried focal row after point `t` is `accS … t` and the carried label row is `accT … t`: a point that starts a half
  (t = 0, 8) restarts from zero, every other point continues from the point before.  The two outputs are written
  back only after points 7 and 15, into row blocks 0–7 and 8–15, which are disjoint; row 0 of what point `8 p + 7`
  writes back is the carried row it has just completed.  So row `8 p` of each output array ends at that row.
-/
import proofs.«118615_j52853867545034_2_alg».proof.Proof.Pieces
import proofs.«118615_j52853867545034_2_alg».proof.Proof.Partials

noncomputable section

open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen Cert.KernelIdeal.Pieces Cert.Focal

variable (m : (ℓ : Loc nD τ sig) → Buf (Elt Ideal) ℓ)

/-- The index maps over the grid: both inputs take row block `t` at point `t`; both outputs sit at row block `t / 8`;
    all windows span every column. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The block of the logits that point `t` loads. -/
theorem iblk0_eq (c : Dev nD) (t : Fin cfg0.N) :
    (iblk m c 0 t : Vec Ideal S1024x1024 .f32) = blockAt (m ((c : Thread nD τ).loc main_arg0)) t.val := by
  have hi := index_facts t
  have hN : t.val < 16 := lt_of_lt_of_eq t.isLt (show cfg0.N = 16 from N_0)
  funext y
  have h0 : (y 0).val < 1024 := (y 0).isLt
  unfold iblk blockAt
  rw [View.read_apply]
  show V m c main_arg0 _ = m (c.tc.loc main_arg0) _
  unfold V
  congr 1
  funext a
  apply Fin.ext
  match a with
  | ⟨0, _⟩ => show win0_0.index t 0 * 1024 + 1 * (y 0).val = (1024 * t.val + (y 0).val) % 16384; rw [hi.1]; omega
  | ⟨1, _⟩ => show win0_0.index t 1 * 1024 + 1 * (y 1).val = (y 1).val; rw [hi.2.1]; omega

/-- The block of the labels that point `t` loads. -/
theorem iblk1_eq (c : Dev nD) (t : Fin cfg0.N) :
    (iblk m c 1 t : Vec Ideal S1024x1024 .f32) = blockAt (m ((c : Thread nD τ).loc main_arg1)) t.val := by
  have hi := index_facts t
  have hN : t.val < 16 := lt_of_lt_of_eq t.isLt (show cfg0.N = 16 from N_0)
  funext y
  have h0 : (y 0).val < 1024 := (y 0).isLt
  unfold iblk blockAt
  rw [View.read_apply]
  show V m c main_arg1 _ = m (c.tc.loc main_arg1) _
  unfold V
  congr 1
  funext a
  apply Fin.ext
  match a with
  | ⟨0, _⟩ => show win0_1.index t 0 * 1024 + 1 * (y 0).val = (1024 * t.val + (y 0).val) % 16384; rw [hi.2.2.1]; omega
  | ⟨1, _⟩ => show win0_1.index t 1 * 1024 + 1 * (y 1).val = (y 1).val; rw [hi.2.2.2.1]; omega

/-- The carried rows after point `n` are the two accumulators: by induction on the point. -/
theorem rows_eq (c : Dev nD) : ∀ (n : ℕ) (h : n < cfg0.N),
    (outsAt0 m c n h).2.2.1 = accS (m ((c : Thread nD τ).loc main_arg0)) (m ((c : Thread nD τ).loc main_arg1)) n
    ∧ (outsAt0 m c n h).2.2.2 = accT (m ((c : Thread nD τ).loc main_arg1)) n
  | 0, h => by
    rw [outsAt0_A m c ⟨0, h⟩ rfl (by show ¬(0 : ℕ) % 8 = 7; decide)]
    dsimp only
    rw [rowS_first, rowT_first, iblk0_eq, iblk1_eq]
    exact ⟨rfl, rfl⟩
  | n + 1, h => by
    have hN : cfg0.N = 16 := N_0
    obtain ⟨ihS, ihT⟩ := rows_eq c n (Nat.lt_of_succ_lt h)
    by_cases h0 : (n + 1) % 8 = 0
    · have h1 : ¬(n + 1) % 8 = 7 := by omega
      rw [outsAt0_A m c ⟨n + 1, h⟩ h0 h1]
      dsimp only
      rw [rowS_first, rowT_first, iblk0_eq, iblk1_eq]
      constructor
      · rw [accS, if_pos h0]
      · rw [accT, if_pos h0]
    · by_cases h1 : (n + 1) % 8 = 7
      · rw [outsAt0_C m c ⟨n + 1, h⟩ h0 h1]
        dsimp only
        rw [rowS_last, rowT_last, iblk0_eq, iblk1_eq]
        constructor
        · rw [accS, if_neg h0]
          exact congrArg _ ihS
        · rw [accT, if_neg h0]
          exact congrArg (fun v => k0_pay1 (k0_pay7 _ v)) ihT
      · rw [outsAt0_B m c ⟨n + 1, h⟩ h0 h1]
        dsimp only
        rw [rowS_mid, rowT_mid, iblk0_eq, iblk1_eq]
        constructor
        · rw [accS, if_neg h0]
          exact congrArg _ ihS
        · rw [accT, if_neg h0]
          exact congrArg (fun v => k0_pay1 (k0_pay7 _ v)) ihT

/-- Row 0 of what a point ending a half writes back to the focal output is the focal row it has just completed. -/
theorem flushedS_row0 (c : Dev nD) (t : Fin cfg0.N) (h1 : t.val % 8 = 7) (k : Fin 1024) :
    (dats m 0 c).flushed 2 t (ix2 (0 : Fin 8) k)
      = accS (m ((c : Thread nD τ).loc main_arg0)) (m ((c : Thread nD τ).loc main_arg1)) t.val (ix2 (0 : Fin 1) k) := by
  have h0 : ¬t.val % 8 = 0 := by omega
  show (cfg0.win 2).cut (grid0.coords t) ((dats m 0 c).after 2 t) (ix2 (0 : Fin 8) k) = _
  rw [after0_2]
  show (outsAt0 m c t.val t.isLt).1 (ix2 (0 : Fin 8) k) = _
  rw [← (rows_eq m c t.val t.isLt).1, outsAt0_C m c t h0 h1]
  dsimp only
  rw [outS_row0, rowS_last]

/-- Row 0 of what a point ending a half writes back to the label output is the label row it has just completed. -/
theorem flushedT_row0 (c : Dev nD) (t : Fin cfg0.N) (h1 : t.val % 8 = 7) (k : Fin 1024) :
    (dats m 0 c).flushed 3 t (ix2 (0 : Fin 8) k)
      = accT (m ((c : Thread nD τ).loc main_arg1)) t.val (ix2 (0 : Fin 1) k) := by
  have h0 : ¬t.val % 8 = 0 := by omega
  show (cfg0.win 3).cut (grid0.coords t) ((dats m 0 c).after 3 t) (ix2 (0 : Fin 8) k) = _
  rw [after0_3]
  show (outsAt0 m c t.val t.isLt).2.1 (ix2 (0 : Fin 8) k) = _
  rw [← (rows_eq m c t.val t.isLt).2, outsAt0_C m c t h0 h1]
  dsimp only
  rw [outT_row0, rowT_last]

/-- The two write-backs of the focal output go to different row blocks. -/
theorem disjoint2 (c : Dev nD) : ∀ t t' : Fin cfg0.N, (cfg0.win 2).flush t = true → (cfg0.win 2).flush t' = true → t ≠ t' →
    Disjoint ((cfg0.win 2).blk t).view.set ((cfg0.win 2).blk t').view.set := by
  intro t t' hf hf' hne
  have hN : cfg0.N = 16 := N_0
  have hl := t.isLt
  have hl' := t'.isLt
  have h7 := (flush0_2 t).mp hf
  have h7' := (flush0_2 t').mp hf'
  have hi := (index_facts t).2.2.2.2.1
  have hi' := (index_facts t').2.2.2.2.1
  have hv : t.val ≠ t'.val := fun e => hne (Fin.ext e)
  rw [Finset.disjoint_left]
  intro i m1 m2
  have m1' : i ∈ ((View.whole main_v0_0).slice (win0_2.rect t)).set := m1
  have m2' : i ∈ ((View.whole main_v0_0).slice (win0_2.rect t')).set := m2
  rw [View.set_slice_whole, Rect.mem_set_unit] at m1' m2'
  have a1 : win0_2.index t 0 * 8 ≤ (i 0 : Nat) ∧ (i 0 : Nat) < win0_2.index t 0 * 8 + 8 := m1' 0
  have a2 : win0_2.index t' 0 * 8 ≤ (i 0 : Nat) ∧ (i 0 : Nat) < win0_2.index t' 0 * 8 + 8 := m2' 0
  rw [hi] at a1
  rw [hi'] at a2
  omega

/-- The two write-backs of the label output go to different row blocks. -/
theorem disjoint3 (c : Dev nD) : ∀ t t' : Fin cfg0.N, (cfg0.win 3).flush t = true → (cfg0.win 3).flush t' = true → t ≠ t' →
    Disjoint ((cfg0.win 3).blk t).view.set ((cfg0.win 3).blk t').view.set := by
  intro t t' hf hf' hne
  have hN : cfg0.N = 16 := N_0
  have hl := t.isLt
  have hl' := t'.isLt
  have h7 := (flush0_3 t).mp hf
  have h7' := (flush0_3 t').mp hf'
  have hi := (index_facts t).2.2.2.2.2.2.1
  have hi' := (index_facts t').2.2.2.2.2.2.1
  have hv : t.val ≠ t'.val := fun e => hne (Fin.ext e)
  rw [Finset.disjoint_left]
  intro i m1 m2
  have m1' : i ∈ ((View.whole main_v0_1).slice (win0_3.rect t)).set := m1
  have m2' : i ∈ ((View.whole main_v0_1).slice (win0_3.rect t')).set := m2
  rw [View.set_slice_whole, Rect.mem_set_unit] at m1' m2'
  have a1 : win0_3.index t 0 * 8 ≤ (i 0 : Nat) ∧ (i 0 : Nat) < win0_3.index t 0 * 8 + 8 := m1' 0
  have a2 : win0_3.index t' 0 * 8 ≤ (i 0 : Nat) ∧ (i 0 : Nat) < win0_3.index t' 0 * 8 + 8 := m2' 0
  rw [hi] at a1
  rw [hi'] at a2
  omega

/-- Row `8 p` of the focal output array ends at the focal row completed at point `8 p + 7`. -/
theorem finalS (c : Dev nD) (p : Fin 2) (k : Fin 1024) :
    (dats m 0 c).arrAt 2 cfg0.N (ix2 (⟨8 * p.val, by have := p.isLt; omega⟩ : Fin 16) k)
      = accS (m ((c : Thread nD τ).loc main_arg0)) (m ((c : Thread nD τ).loc main_arg1)) (8 * p.val + 7) (ix2 (0 : Fin 1) k) := by
  have hp := p.isLt
  have hN : cfg0.N = 16 := N_0
  have ht : 8 * p.val + 7 < cfg0.N := by omega
  have h7 : (⟨8 * p.val + 7, ht⟩ : Fin cfg0.N).val % 8 = 7 := by show (8 * p.val + 7) % 8 = 7; omega
  have hf : (cfg0.win 2).flush ⟨8 * p.val + 7, ht⟩ = true := (flush0_2 _).mpr h7
  have h := (dats m 0 c).arrAt_emb_eq_flushed 2 (disjoint2 c) ⟨8 * p.val + 7, ht⟩ hf (ix2 (0 : Fin 8) k)
  have hi := index_facts (⟨8 * p.val + 7, ht⟩ : Fin cfg0.N)
  have e : ((cfg0.win 2).blk ⟨8 * p.val + 7, ht⟩).view.emb (ix2 (0 : Fin 8) k)
      = (ix2 (⟨8 * p.val, by omega⟩ : Fin 16) k : S16x1024.Idx) := by
    funext a
    apply Fin.ext
    match a with
    | ⟨0, _⟩ =>
      show win0_2.index ⟨8 * p.val + 7, ht⟩ 0 * 8 + 1 * 0 = 8 * p.val
      rw [hi.2.2.2.2.1]; show (8 * p.val + 7) / 8 * 8 + 1 * 0 = 8 * p.val; omega
    | ⟨1, _⟩ =>
      show win0_2.index ⟨8 * p.val + 7, ht⟩ 1 * 1024 + 1 * k.val = k.val
      rw [hi.2.2.2.2.2.1]; omega
  rw [e] at h
  rw [h]
  exact flushedS_row0 m c ⟨8 * p.val + 7, ht⟩ h7 k

/-- Row `8 p` of the label output array ends at the label row completed at point `8 p + 7`. -/
theorem finalT (c : Dev nD) (p : Fin 2) (k : Fin 1024) :
    (dats m 0 c).arrAt 3 cfg0.N (ix2 (⟨8 * p.val, by have := p.isLt; omega⟩ : Fin 16) k)
      = accT (m ((c : Thread nD τ).loc main_arg1)) (8 * p.val + 7) (ix2 (0 : Fin 1) k) := by
  have hp := p.isLt
  have hN : cfg0.N = 16 := N_0
  have ht : 8 * p.val + 7 < cfg0.N := by omega
  have h7 : (⟨8 * p.val + 7, ht⟩ : Fin cfg0.N).val % 8 = 7 := by show (8 * p.val + 7) % 8 = 7; omega
  have hf : (cfg0.win 3).flush ⟨8 * p.val + 7, ht⟩ = true := (flush0_3 _).mpr h7
  have h := (dats m 0 c).arrAt_emb_eq_flushed 3 (disjoint3 c) ⟨8 * p.val + 7, ht⟩ hf (ix2 (0 : Fin 8) k)
  have hi := index_facts (⟨8 * p.val + 7, ht⟩ : Fin cfg0.N)
  have e : ((cfg0.win 3).blk ⟨8 * p.val + 7, ht⟩).view.emb (ix2 (0 : Fin 8) k)
      = (ix2 (⟨8 * p.val, by omega⟩ : Fin 16) k : S16x1024.Idx) := by
    funext a
    apply Fin.ext
    match a with
    | ⟨0, _⟩ =>
      show win0_3.index ⟨8 * p.val + 7, ht⟩ 0 * 8 + 1 * 0 = 8 * p.val
      rw [hi.2.2.2.2.2.2.1]; show (8 * p.val + 7) / 8 * 8 + 1 * 0 = 8 * p.val; omega
    | ⟨1, _⟩ =>
      show win0_3.index ⟨8 * p.val + 7, ht⟩ 1 * 1024 + 1 * k.val = k.val
      rw [hi.2.2.2.2.2.2.2]; omega
  rw [e] at h
  rw [h]
  exact flushedT_row0 m c ⟨8 * p.val + 7, ht⟩ h7 k

end Cert.KernelIdeal.Rows

end
-- ==== Proof.KernelTail.lean ====
/-
  The host's last lines of the kernel program, run from the two outputs of the region: the value the result
  buffer holds at the end is `tailTerm` of the two output arrays.
-/
import proofs.«118615_j52853867545034_2_alg».proof.Proof.Gen.KernelIdeal.Frame
import proofs.«118615_j52853867545034_2_alg».proof.Proof.Partials
import Idealize.ShloMosaic.Lib.Pipeline.Value
import Idealize.ShloMosaic.Lib.StableHlo.Run

noncomputable section

namespace Cert.KernelIdeal.Tail

open Idealize.ShloMosaic Idealize.ShloMosaic.TcCoe Idealize.SL.Sem Cert.KernelIdeal Cert.KernelIdeal.Gen Cert.Focal

variable (m : (ℓ : Loc nD τ sig) → Buf (Elt Ideal) ℓ)

/-- The result buffer is unscoped and is no window's array. -/
theorem v35_rest : main_v35 ∈ Pipeline.restRefs sig cfg0.spec :=
  Pipeline.mem_restRefs_of main_v35 rfl (by decide)

/-- At the end of the region the focal output's buffer holds the pipeline's array of window 2. -/
theorem out2 (c : Dev nD) :
    Pipeline.withArrays (cfgs 0).spec c (V0 m c) (fun w => (dats m 0 c).arrAt w (cfgs 0).N) (Proc.devRef .tc main_v0_0)
      = (dats m 0 c).arrAt 2 cfg0.N :=
  Pipeline.withArrays_arr spec0 launch0.win.arr_inj c _ _ 2

/-- And the label output's buffer that of window 3. -/
theorem out3 (c : Dev nD) :
    Pipeline.withArrays (cfgs 0).spec c (V0 m c) (fun w => (dats m 0 c).arrAt w (cfgs 0).N) (Proc.devRef .tc main_v0_1)
      = (dats m 0 c).arrAt 3 cfg0.N :=
  Pipeline.withArrays_arr spec0 launch0.win.arr_inj c _ _ 3

set_option maxHeartbeats 1000000 in
/-- The 52 host operations after the region, composed: slices and reshapes of the two outputs, the sums of the
    label rows, the two scatters that build the count vector, the weights, and the weighted mean. -/
theorem tail_value (c : Dev nD) :
    Pipeline.afterTail₀ cfgs (dats m) 0 (V0 m) [hostOps1, hostOps1_1, hostOps1_2] c main_v35
      = tailTerm ((dats m 0 c).arrAt 2 cfg0.N) ((dats m 0 c).arrAt 3 cfg0.N) := by
  unfold Pipeline.afterTail₀
  simp only [hostOps1, hostOps1_1, hostOps1_2, List.flatten_cons, List.flatten_nil, List.append_nil, List.cons_append, List.nil_append]
  open Idealize.ShloMosaic.StableHlo in after_results_simp
  rw [out2 m c, out3 m c]
  unfold tailTerm countsHost onesHost rowsAdded Cert.Focal.weights
  rfl

end Cert.KernelIdeal.Tail

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.PayRead.lean ====
/-
  The kernel body's arithmetic read at one column.

  At every grid point the body forms, entry by entry of the loaded 1024 x 1024 blocks of logits and labels, the focal
  term, adds each column up, and adds that row of 1024 column sums to the row it carries; it does the same with the
  labels themselves.  Over the extended reals every operation is exact, so at column `c` the new carried value is the
  old one plus the sum over the block's 1024 rows of the focal term (of the label).  The two carried rows start from
  the zero word, which is the extended real zero.  The body writes `0 - y` for `-y` and `max x 0` with the zero word;
  with that word evaluated its entry term is `loss`.
-/
import proofs.«118615_j52853867545034_2_alg».proof.Proof.Partials
import proofs.«118615_j52853867545034_2_alg».proof.Proof.LibColSum
import Idealize.ShloMosaic.Lib.ValueLayout

noncomputable section

open scoped BigOperators

namespace Cert.Focal

open Idealize.ShloMosaic Idealize.ShloMosaic.TcCoe Idealize.ShloMosaic.ValueIdx Cert.KernelIdeal Cert.KernelIdeal.Gen

/-- On the extended reals `0 - y` is `-y`. -/
theorem zero_sub_ereal (y : EReal) : (0 : EReal) - y = -y := by rw [sub_eq_add_neg, zero_add]

/-- The body's entry term, with its zero words, is the focal term. -/
theorem body_eq_loss (x t : EReal) :
    (halfL * ((oneL - Ideal.exp (zeroL - ((max x zeroL - x * t) + Ideal.log1p (Ideal.exp (zeroL - max x (-x))))))
        * (oneL - Ideal.exp (zeroL - ((max x zeroL - x * t) + Ideal.log1p (Ideal.exp (zeroL - max x (-x))))))))
      * ((max x zeroL - x * t) + Ideal.log1p (Ideal.exp (zeroL - max x (-x)))) = loss x t := by
  unfold loss om bce
  simp only [zeroL, Ideal.ofBits_zero_f32, zero_sub_ereal]

/-- The row the focal sums restart from is zero at every column. -/
theorem pay4_apply (c : Fin 1024) : k0_pay4 (F := Ideal) (ix2 (0 : Fin 1) c) = 0 := by
  unfold k0_pay4
  refine (congrFun (shapeCast_self _ _) _).trans ?_
  exact Ideal.ofBits_zero_f32

/-- The row the label sums restart from is zero at every column. -/
theorem pay5_apply (c : Fin 1024) : k0_pay5 (F := Ideal) (ix2 (0 : Fin 1) c) = 0 := by
  unfold k0_pay5
  refine (congrFun (shapeCast_self _ _) _).trans ?_
  exact Ideal.ofBits_zero_f32

/-- The carried focal row after one block, at column `c`: the row before, plus the block's column sum of the focal
    term. -/
theorem pay6_apply (x t : FVec Ideal S1024x1024 .f32) (prev : FVec Ideal S1x1024 .f32) (c : Fin 1024) :
    k0_pay6 (F := Ideal) x t prev (ix2 (0 : Fin 1) c)
      = prev (ix2 (0 : Fin 1) c) + ∑ r : Fin 1024, loss (x (ix2 r c)) (t (ix2 r c)) := by
  unfold k0_pay6
  refine (congrFun (shapeCast_self _ _) _).trans ?_
  refine congrArg (prev (ix2 (0 : Fin 1) c) + ·) ?_
  refine (shapeCast_a_1a_apply _ _ (0 : Fin 1) c).trans ?_
  refine (Cert.ColSum.multiReduction_add_col _ _ _ _ _ c).trans ?_
  exact Finset.sum_congr rfl fun r _ => body_eq_loss (x (ix2 r c)) (t (ix2 r c))

/-- The carried label row after one block, at column `c`: the row before, plus the block's column sum of the labels. -/
theorem pay17_apply (t : FVec Ideal S1024x1024 .f32) (prev : FVec Ideal S1x1024 .f32) (c : Fin 1024) :
    k0_pay1 (F := Ideal) (k0_pay7 (F := Ideal) t prev) (ix2 (0 : Fin 1) c)
      = prev (ix2 (0 : Fin 1) c) + ∑ r : Fin 1024, t (ix2 r c) := by
  unfold k0_pay1 k0_pay7
  refine (congrFun (shapeCast_self _ _) _).trans ?_
  refine congrArg (prev (ix2 (0 : Fin 1) c) + ·) ?_
  refine (shapeCast_a_1a_apply _ _ (0 : Fin 1) c).trans ?_
  exact Cert.ColSum.multiReduction_add_col _ _ _ _ _ c

end Cert.Focal

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.SumBlocks.lean ====
/-
  Sums taken block by block.

  The 16384 samples are visited in 16 blocks of 1024.  `blk F t` is the sum of `F` over the block that point `t`
  visits.  A quantity that starts from zero at a point, and at each of the next seven points grows by the block's
  sum, holds after those eight points the sum of the eight block sums (`acc_eq_sum`); and the sum of `F` over all
  samples is the sum of the first eight block sums plus the sum of the last eight (`sum_eq_halves`).  Only the
  commutative monoid laws of addition are used.
-/
import proofs.«118615_j52853867545034_2_alg».proof.Proof.LibSumSplit

noncomputable section

open scoped BigOperators

namespace Cert.Focal

/-- A quantity that is `0 + g n` at point `n` and grows by `g` of the point at each of the next seven points is,
    `j` points later, the sum of `g` over the points `n … n + j`. -/
theorem acc_eq_sum {M : Type*} [AddCommMonoid M] (acc g : ℕ → M) (n : ℕ) (h0 : acc n = 0 + g n)
    (hs : ∀ j, j < 7 → acc (n + (j + 1)) = acc (n + j) + g (n + (j + 1))) (j : ℕ) (hj : j ≤ 7) :
    acc (n + j) = ∑ i ∈ Finset.range (j + 1), g (n + i) := by
  induction j with
  | zero => rw [Finset.sum_range_one, Nat.add_zero, h0, zero_add]
  | succ j ih =>
    rw [hs j (by omega), ih (by omega), Finset.sum_range_succ (fun i => g (n + i)) (j + 1)]

/-- The sum of `F` over the 1024 samples of the block that point `t` visits (rows `1024 t … 1024 t + 1023`; the
    row is taken modulo 16384 only so that no bound on `t` is needed). -/
def blk {M : Type*} [AddCommMonoid M] (F : Fin 16384 → M) (t : ℕ) : M :=
  ∑ r : Fin 1024, F ⟨(1024 * t + r.val) % 16384, Nat.mod_lt _ (by norm_num)⟩

/-- For a point below 16 the block's samples are tile `i` of the 16 tiles of 1024. -/
theorem blk_eq_tile {M : Type*} [AddCommMonoid M] (F : Fin 16384 → M) (i : Fin 16) :
    blk F i.val = ∑ r : Fin 1024, F (Cert.PointDist.tileIdx (a := 16) (b := 1024) (N := 16384) rfl i r) := by
  unfold blk
  refine Finset.sum_congr rfl fun r _ => congrArg F (Fin.ext ?_)
  show (1024 * i.val + r.val) % 16384 = i.val * 1024 + r.val
  have := i.isLt
  have := r.isLt
  omega

/-- The sum over all samples is the sum of the first eight block sums plus the sum of the last eight. -/
theorem sum_eq_halves {M : Type*} [AddCommMonoid M] (F : Fin 16384 → M) :
    ∑ n, F n = ∑ i ∈ Finset.range 8, blk F i + ∑ i ∈ Finset.range 8, blk F (8 + i) := by
  have h16 : ∑ n, F n = ∑ i ∈ Finset.range 16, blk F i := by
    rw [Cert.PointDist.sum_tiles (a := 16) (b := 1024) (N := 16384) rfl F, Finset.sum_range]
    exact Finset.sum_congr rfl fun i _ => (blk_eq_tile F i).symm
  exact h16.trans (Finset.sum_range_add (fun i => blk F i) 8 8)

end Cert.Focal

end
-- ==== Proof.SumAcc.lean ====
/-
  The two carried rows as sums over the samples.

  The carried focal row restarts from zero at points 0 and 8 and otherwise grows, column by column, by the block's
  column sum of the focal term; so after points 7 and 15 it holds, at column `c`, the sum of the eight block sums
  of its half.  The two halves together are the sum over all 16384 samples: `colLoss`.  The carried label row
  likewise holds the column sums of the labels.
-/
import proofs.«118615_j52853867545034_2_alg».proof.Proof.PayRead
import proofs.«118615_j52853867545034_2_alg».proof.Proof.SumBlocks

noncomputable section

open scoped BigOperators

namespace Cert.Focal

open Idealize.ShloMosaic Idealize.ShloMosaic.TcCoe Idealize.ShloMosaic.ValueIdx Cert.KernelIdeal Cert.KernelIdeal.Gen

/-- The focal term of sample `n` in class `c`. -/
abbrev lossAt (X T : Sxt.Idx → EReal) (c : Fin 1024) (n : Fin 16384) : EReal := loss (X (ix2 n c)) (T (ix2 n c))

/-- The label of sample `n` in class `c`. -/
abbrev labelAt (T : Sxt.Idx → EReal) (c : Fin 1024) (n : Fin 16384) : EReal := T (ix2 n c)

/-- At a point that starts a half the carried focal row is the block's column sums, added to zero. -/
theorem accS_restart (X T : Sxt.Idx → EReal) (n : ℕ) (h : n % 8 = 0) (c : Fin 1024) :
    accS X T n (ix2 (0 : Fin 1) c) = 0 + blk (lossAt X T c) n := by
  have e : accS X T n = k0_pay6 (F := Ideal) (blockAt X n) (blockAt T n) (k0_pay4 (F := Ideal)) := by
    cases n with
    | zero => rfl
    | succ m => exact if_pos h
  rw [e, pay6_apply, pay4_apply]
  rfl

/-- At any other point it is the row before plus the block's column sums. -/
theorem accS_step (X T : Sxt.Idx → EReal) (n : ℕ) (h : (n + 1) % 8 ≠ 0) (c : Fin 1024) :
    accS X T (n + 1) (ix2 (0 : Fin 1) c) = accS X T n (ix2 (0 : Fin 1) c) + blk (lossAt X T c) (n + 1) := by
  have e : accS X T (n + 1)
      = k0_pay6 (F := Ideal) (blockAt X (n + 1)) (blockAt T (n + 1)) (accS X T n) := if_neg h
  rw [e, pay6_apply]
  rfl

/-- After the eighth point of a half the carried focal row holds the half's eight block sums. -/
theorem accS_half (X T : Sxt.Idx → EReal) (n : ℕ) (h : n % 8 = 0) (c : Fin 1024) :
    accS X T (n + 7) (ix2 (0 : Fin 1) c) = ∑ i ∈ Finset.range 8, blk (lossAt X T c) (n + i) :=
  acc_eq_sum (fun m => accS X T m (ix2 (0 : Fin 1) c)) (fun m => blk (lossAt X T c) m) n (accS_restart X T n h c)
    (fun j hj => accS_step X T (n + j) (by omega) c) 7 (le_refl 7)

/-- The same three facts for the carried label row. -/
theorem accT_restart (T : Sxt.Idx → EReal) (n : ℕ) (h : n % 8 = 0) (c : Fin 1024) :
    accT T n (ix2 (0 : Fin 1) c) = 0 + blk (labelAt T c) n := by
  have e : accT T n = k0_pay1 (F := Ideal) (k0_pay7 (F := Ideal) (blockAt T n) (k0_pay5 (F := Ideal))) := by
    cases n with
    | zero => rfl
    | succ m => exact if_pos h
  rw [e, pay17_apply, pay5_apply]
  rfl

theorem accT_step (T : Sxt.Idx → EReal) (n : ℕ) (h : (n + 1) % 8 ≠ 0) (c : Fin 1024) :
    accT T (n + 1) (ix2 (0 : Fin 1) c) = accT T n (ix2 (0 : Fin 1) c) + blk (labelAt T c) (n + 1) := by
  have e : accT T (n + 1)
      = k0_pay1 (F := Ideal) (k0_pay7 (F := Ideal) (blockAt T (n + 1)) (accT T n)) := if_neg h
  rw [e, pay17_apply]
  rfl

theorem accT_half (T : Sxt.Idx → EReal) (n : ℕ) (h : n % 8 = 0) (c : Fin 1024) :
    accT T (n + 7) (ix2 (0 : Fin 1) c) = ∑ i ∈ Finset.range 8, blk (labelAt T c) (n + i) :=
  acc_eq_sum (fun m => accT T m (ix2 (0 : Fin 1) c)) (fun m => blk (labelAt T c) m) n (accT_restart T n h c)
    (fun j hj => accT_step T (n + j) (by omega) c) 7 (le_refl 7)

/-- The two halves of the focal row together: the sum of class `c`'s focal terms over all samples. -/
theorem accS_halves (X T : Sxt.Idx → EReal) (c : Fin 1024) :
    accS X T 7 (ix2 (0 : Fin 1) c) + accS X T 15 (ix2 (0 : Fin 1) c) = colLoss X T c := by
  have h0 : accS X T 7 (ix2 (0 : Fin 1) c) = ∑ i ∈ Finset.range 8, blk (lossAt X T c) i :=
    (accS_half X T 0 rfl c).trans (Finset.sum_congr rfl fun i _ => by rw [Nat.zero_add])
  have h1 : accS X T 15 (ix2 (0 : Fin 1) c) = ∑ i ∈ Finset.range 8, blk (lossAt X T c) (8 + i) :=
    accS_half X T 8 rfl c
  rw [h0, h1]
  exact (sum_eq_halves (lossAt X T c)).symm

/-- The two halves of the label row together: the sum of class `c`'s labels over all samples. -/
theorem accT_halves (T : Sxt.Idx → EReal) (c : Fin 1024) :
    accT T 7 (ix2 (0 : Fin 1) c) + accT T 15 (ix2 (0 : Fin 1) c) = ∑ n : Fin 16384, T (ix2 n c) := by
  have h0 : accT T 7 (ix2 (0 : Fin 1) c) = ∑ i ∈ Finset.range 8, blk (labelAt T c) i :=
    (accT_half T 0 rfl c).trans (Finset.sum_congr rfl fun i _ => by rw [Nat.zero_add])
  have h1 : accT T 15 (ix2 (0 : Fin 1) c) = ∑ i ∈ Finset.range 8, blk (labelAt T c) (8 + i) :=
    accT_half T 8 rfl c
  rw [h0, h1]
  exact (sum_eq_halves (labelAt T c)).symm

end Cert.Focal

end
-- ==== Proof.TailRead.lean ====
/-
  The host's last lines read at an index.

  After the kernel the host takes rows 0 and 8 of the two 16-row outputs.  Of the focal output it adds them, entry by
  entry (`rowsAdded`).  Of the label output it sums each and adds the two sums (`onesHost`): the number of ones.  It
  then builds the count vector: zero everywhere, entry 0 set to 2²⁴ minus that number, entry 1 set to that number —
  a scatter whose one update replaces the one entry its index names.  The result is the weighted sum of the added
  rows, divided by 2²⁴.
-/
import proofs.«118615_j52853867545034_2_alg».proof.Proof.Partials
import Idealize.ShloMosaic.Lib.ValueLayout
import Idealize.ShloMosaic.Lib.IdealHost

noncomputable section

open scoped BigOperators

namespace Cert.Focal

open Idealize.ShloMosaic Idealize.ShloMosaic.TcCoe Idealize.ShloMosaic.ValueIdx Cert.KernelIdeal Cert.KernelIdeal.Gen

/-! ## Row `o` of a 16-row array as a vector -/

/-- The one-row slice at row `o`, reshaped to a vector, reads at `c` the array at `(o, c)`. -/
theorem rowOf_apply (A : FVec Ideal S16x1024 .f32) (o : ℕ) (h : S16x1024.Slices ![o, 0] S1x1024) (k : Fin 16)
    (hk : k.val = o) (c : Fin 1024) :
    shapeCast S1024 (extractStridedSlice S1x1024 ![o, 0] A h) shapeCasts_S1x1024_S1024 (ix1 c) = A (ix2 k c) :=
  (shapeCast_1a_a_apply _ _ c).trans (slice2_axis0_apply o A h (0 : Fin 1) c k (by rw [hk]; rfl))

/-- Rows 0 and 8 added, at column `c`. -/
theorem rowsAdded_apply (A : FVec Ideal S16x1024 .f32) (c : Fin 1024) :
    rowsAdded A (ix1 c) = A (ix2 (0 : Fin 16) c) + A (ix2 (8 : Fin 16) c) := by
  unfold rowsAdded
  exact congrArg₂ (· + ·) (rowOf_apply A 0 _ 0 rfl c) (rowOf_apply A 8 _ 8 rfl c)

/-! ## The host's sum of a vector -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The host's sum of a vector of 1024 extended reals: the initial value plus the sum of the entries. -/
theorem reduceAdd_vec (x : FVec Ideal S1024 .f32) (init : FVec Ideal S_ .f32) :
    Host.reduceAdd (F := Ideal) x init reducesTo_S1024_S_d0 h_S_ ix0 = init ix0 + ∑ c : Fin 1024, x (ix1 c) := by
  refine (Ideal.hostReduceAdd_total reducesTo_S1024_S_d0 (fun b => b.elim0) x _ ix0).trans ?_
  exact congrArg₂ (· + ·) (congrArg init (eq_ix0 _)) (sum_idx1 x)

/-- The host's number of ones: the sum of row 0 plus the sum of row 8 of the label output, each from zero. -/
theorem onesHost_apply (B : FVec Ideal S16x1024 .f32) :
    onesHost B ix0 = (0 + ∑ c : Fin 1024, B (ix2 (0 : Fin 16) c)) + (0 + ∑ c : Fin 1024, B (ix2 (8 : Fin 16) c)) := by
  unfold onesHost
  refine congrArg₂ (· + ·) ((reduceAdd_vec _ _).trans ?_) ((reduceAdd_vec _ _).trans ?_)
  · exact congrArg₂ (· + ·) Ideal.ofBits_zero_f32 (Finset.sum_congr rfl fun c _ => rowOf_apply B 0 _ 0 rfl c)
  · exact congrArg₂ (· + ·) Ideal.ofBits_zero_f32 (Finset.sum_congr rfl fun c _ => rowOf_apply B 8 _ 8 rfl c)

/-! ## A scatter of one scalar update at one constant index sets that entry -/

/-- With every index word equal to `k`, a word that reads as the natural number `m` below 1024, the one update lands
    at entry `m`. -/
theorem resultIdx_const (k : BitVec 32) (idx : IVec S1 32) (hidx : ∀ j, idx j = k) (m : ℕ) (hk : k.toInt = (m : ℤ))
    (hm : m < 1024) (j : S_.Idx) :
    scatter_S1024_S1_S__n_0_0_0.resultIdx? j idx = some (ix1 (⟨m, hm⟩ : Fin 1024)) := by
  have hstart : ∀ a, scatter_S1024_S1_S__n_0_0_0.start j idx a = (m : ℤ) := by
    intro a
    have ha : a = (0 : Fin 1) := Subsingleton.elim (α := Fin 1) a 0
    subst ha
    unfold ScatterDims.start
    rw [dif_pos (show (0 : Fin 1) ∈ scatter_S1024_S1_S__n_0_0_0.scatterDimsToOperandDims from
      List.mem_singleton.mpr rfl), hidx, hk]
  have hwin : ∀ a, scatter_S1024_S1_S__n_0_0_0.window j a = 0 := by
    intro a
    have ha : a = (0 : Fin 1) := Subsingleton.elim (α := Fin 1) a 0
    subst ha
    unfold ScatterDims.window
    exact dif_neg (by decide)
  unfold ScatterDims.resultIdx?
  rw [dif_pos (fun a => by
    rw [hstart a, hwin a]
    have ha : a = (0 : Fin 1) := Subsingleton.elim (α := Fin 1) a 0
    subst ha
    show 0 ≤ (m : ℤ) + ((0 : ℕ) : ℤ) ∧ (m : ℤ) + ((0 : ℕ) : ℤ) < ((1024 : ℕ) : ℤ)
    omega)]
  refine congrArg some (funext fun a => Fin.ext ?_)
  have ha : a = (0 : Fin 1) := Subsingleton.elim (α := Fin 1) a 0
  subst ha
  show (scatter_S1024_S1_S__n_0_0_0.start j idx 0
    + ((scatter_S1024_S1_S__n_0_0_0.window j 0 : ℕ) : ℤ)).toNat = m
  rw [hstart, hwin]
  omega

/-- So the scatter that returns its update replaces entry `m` by the update and keeps every other entry. -/
theorem scatter_set (x : FVec Ideal S1024 .f32) (k : BitVec 32) (idx : IVec S1 32) (hidx : ∀ j, idx j = k) (m : ℕ)
    (hk : k.toInt = (m : ℤ)) (hm : m < 1024) (v : FVec Ideal S_ .f32) (i : Fin 1024) :
    Host.scatter scatter_S1024_S1_S__n_0_0_0 (fun _ b => b) x idx v (ix1 i)
      = if i.val = m then v ix0 else x (ix1 i) := by
  unfold Host.scatter
  have hfr : List.finRange S_.numel = [(⟨0, h_S_⟩ : Fin S_.numel)] := by decide
  rw [hfr, List.foldl_cons, List.foldl_nil, resultIdx_const k idx hidx m hk hm]
  show (if ix1 i = ix1 (⟨m, hm⟩ : Fin 1024) then v (S_.rowMajor.symm ⟨0, h_S_⟩) else x (ix1 i)) = _
  have hv : v (S_.rowMajor.symm ⟨0, h_S_⟩) = v ix0 := congrArg v (eq_ix0 _)
  by_cases hi : i.val = m
  · rw [if_pos hi, if_pos (congrArg ix1 (Fin.ext hi)), hv]
  · rw [if_neg hi, if_neg (fun h => hi (congrArg (fun f : S1024.Idx => (f 0).val) h))]

/-! ## The host's count vector -/

/-- Entry `i` of the host's count vector: 2²⁴ minus the number of ones at 0, the number of ones at 1, zero elsewhere. -/
theorem countsHost_apply (B : FVec Ideal S16x1024 .f32) (i : Fin 1024) :
    countsHost B (ix1 i)
      = if i.val = 0 then n24 - onesHost B ix0 else if i.val = 1 then onesHost B ix0 else 0 := by
  unfold countsHost
  rw [scatter_set _ 1#32 (broadcastInDim S1 ![] bcast_S_S1 (constantI S_ 32 1#32)) (fun _ => rfl) 1 (by decide)
      (by norm_num) _ i,
    scatter_set _ 0#32 (broadcastInDim S1 ![] bcast_S_S1 (constantI S_ 32 0#32)) (fun _ => rfl) 0 (by decide)
      (by norm_num) _ i]
  show (if i.val = 1 then onesHost B ix0
    else if i.val = 0 then n24 - onesHost B ix0 else Ideal.ofBits .f32 0x00000000#32) = _
  rw [Ideal.ofBits_zero_f32]
  by_cases h0 : i.val = 0
  · rw [if_pos h0, if_neg (by omega), if_pos h0]
  · rw [if_neg h0, if_neg h0]

/-- So when the host's number of ones is `ones`, its count vector is the one `counts` describes. -/
theorem countsHost_eq (B : FVec Ideal S16x1024 .f32) (ones : EReal) (h : onesHost B ix0 = ones) :
    countsHost B = fun i => if (i 0).val = 0 then n24 - ones else if (i 0).val = 1 then ones else 0 := by
  funext i
  obtain ⟨a, rfl⟩ : ∃ a : Fin 1024, i = ix1 a := ⟨i 0, eq_ix1 i⟩
  rw [countsHost_apply, h]

/-! ## The result -/

/-- The host's result: the weighted sum, from zero, of the added rows, divided by 2²⁴. -/
theorem tailTerm_apply (A B : FVec Ideal S16x1024 .f32) :
    tailTerm A B ix0
      = Ideal.div (0 + ∑ c : Fin 1024, weights bcast_S_S1024 reducesTo_S1024_S_d0 h_S_ (countsHost B) (ix1 c)
          * (A (ix2 (0 : Fin 16) c) + A (ix2 (8 : Fin 16) c))) n24 := by
  unfold tailTerm
  refine congrArg (fun z => Ideal.div z n24) ?_
  refine (reduceAdd_vec _ _).trans ?_
  refine congrArg₂ (· + ·) Ideal.ofBits_zero_f32 (Finset.sum_congr rfl fun c _ => ?_)
  exact congrArg (weights bcast_S_S1024 reducesTo_S1024_S_d0 h_S_ (countsHost B) (ix1 c) * ·) (rowsAdded_apply A c)

end Cert.Focal

end
-- ==== Proof.TailValue.lean ====
/-
  From the kernel's two outputs to the mean loss.

  Rows 0 and 8 of the focal output hold, column by column, the two halves of the samples' focal sums; added they are
  the class's sum over all samples (`colLoss`).  Rows 0 and 8 of the label output hold the halves of the label sums;
  summed over the columns and added they are the sum of all labels (`onesTotal`), so the host's count vector is
  `counts`.  The host's weighted sum divided by 2²⁴ is then `mid`.  Nothing is asked of the arrays: sums are
  regrouped in the commutative monoid of the extended reals under addition.
-/
import proofs.«118615_j52853867545034_2_alg».proof.Proof.SumAcc
import proofs.«118615_j52853867545034_2_alg».proof.Proof.TailRead

noncomputable section

open scoped BigOperators

namespace Cert.Focal

open Idealize.ShloMosaic Idealize.ShloMosaic.TcCoe Idealize.ShloMosaic.ValueIdx Cert.KernelIdeal Cert.KernelIdeal.Gen

/-- The host's last lines applied to outputs whose rows 0 and 8 hold the carried rows after points 7 and 15 give the
    mean class-balanced focal loss. -/
theorem tail_eq_mid (X T : Sxt.Idx → EReal) (A B : FVec Ideal S16x1024 .f32)
    (hA : ∀ (p : Fin 2) (c : Fin 1024),
      A (ix2 (⟨8 * p.val, by have := p.isLt; omega⟩ : Fin 16) c) = accS X T (8 * p.val + 7) (ix2 (0 : Fin 1) c))
    (hB : ∀ (p : Fin 2) (c : Fin 1024),
      B (ix2 (⟨8 * p.val, by have := p.isLt; omega⟩ : Fin 16) c) = accT T (8 * p.val + 7) (ix2 (0 : Fin 1) c)) :
    tailTerm A B = mid bcast_S_S1024 reducesTo_S1024_S_d0 h_S_ X T := by
  have hA0 : ∀ c, A (ix2 (0 : Fin 16) c) = accS X T 7 (ix2 (0 : Fin 1) c) := fun c => hA 0 c
  have hA8 : ∀ c, A (ix2 (8 : Fin 16) c) = accS X T 15 (ix2 (0 : Fin 1) c) := fun c => hA 1 c
  have hB0 : ∀ c, B (ix2 (0 : Fin 16) c) = accT T 7 (ix2 (0 : Fin 1) c) := fun c => hB 0 c
  have hB8 : ∀ c, B (ix2 (8 : Fin 16) c) = accT T 15 (ix2 (0 : Fin 1) c) := fun c => hB 1 c
  -- the host's number of ones is the sum of all labels
  have hones : onesHost B ix0 = onesTotal T := by
    rw [onesHost_apply, zero_add, zero_add, ← Finset.sum_add_distrib]
    exact Finset.sum_congr rfl fun c _ => by rw [hB0, hB8, accT_halves]
  -- so its count vector is `counts T`
  have hcnt : countsHost B = counts T := countsHost_eq B (onesTotal T) hones
  funext j
  rw [eq_ix0 j, tailTerm_apply, hcnt]
  show _ = Ideal.div (0 + ∑ c : Fin 1024,
    weights bcast_S_S1024 reducesTo_S1024_S_d0 h_S_ (counts T) (ix1 c) * colLoss X T c) n24
  refine congrArg (fun z => Ideal.div (0 + z) n24) (Finset.sum_congr rfl fun c _ => ?_)
  rw [hA0, hA8, accS_halves]

end Cert.Focal

end
-- ==== Proof.KernelValue.lean ====
/-
  The kernel's result: the mean class-balanced focal loss.

  After the run the two output arrays hold, in rows 0 and 8, the two halves' column sums of the focal terms and of the
  labels (Rows.lean); the host's last lines turn those into the weighted mean (KernelTail.lean: the lines as one
  term), and that term is `mid` of the two argument arrays by regrouping sums (TailValue.lean).  The argument arrays
  themselves are never written.
-/
import proofs.«118615_j52853867545034_2_alg».proof.Proof.Rows
import proofs.«118615_j52853867545034_2_alg».proof.Proof.KernelTail
import proofs.«118615_j52853867545034_2_alg».proof.Proof.TailValue

noncomputable section

open Idealize.ShloMosaic Idealize.ShloMosaic.TcCoe Idealize.ShloMosaic.ValueIdx Idealize.SL.Sem
open Idealize.ShloMosaic.Pipeline (Dat)

namespace Cert.KernelIdeal.Mean

open Cert.KernelIdeal Cert.KernelIdeal.Gen Cert.KernelIdeal.Rows Cert.KernelIdeal.Tail Cert.Focal

variable (m : (ℓ : Loc nD τ sig) → Buf (Elt Ideal) ℓ) (ρ : Dev nD → PrngReg)

/-- Every weakly fair execution of the kernel's program terminates with its result at the mean loss of the argument
    arrays, and the argument arrays unchanged. -/
theorem run : θ_run defs (onTc (τ := τ) (main (F := Ideal))) ⟨m, fun _ => 0, ρ⟩ fun r => ∀ c : Dev nD,
      r.2.mem ((c.tc : Thread nD τ).loc main_v35)
        = mid bcast_S_S1024 reducesTo_S1024_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v35 v35_rest).trans ((tail_value m c).trans
        (tail_eq_mid (m ((c.tc : Thread nD τ).loc main_arg0)) (m ((c.tc : Thread nD τ).loc main_arg1))
          ((dats m 0 c).arrAt 2 cfg0.N) ((dats m 0 c).arrAt 3 cfg0.N) (finalS m c) (finalT m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Mean

end
-- ==== Proof.RefEntry.lean ====
/-
  The reference's result, read at its one index, is the mean over all entries of the class-weighted focal term.

  Every operation after the class weights acts entry by entry: the stable cross entropy, the probability of the true
  label, its complement squared as a power, the class weight (broadcast along the samples) times one half; a total sum
  and a division by the number of entries follow.  Reading each operation at an index gives the sum of `lossW`.
-/
import proofs.«118615_j52853867545034_2_alg».proof.Proof.RefRead
import proofs.«118615_j52853867545034_2_alg».proof.Proof.Loss

noncomputable section

open scoped BigOperators

namespace Cert.Focal

open Idealize.ShloMosaic Idealize.ShloMosaic.ValueIdx Cert.ReferenceIdeal Cert.ReferenceIdeal.Read

/-- The class weight broadcast to a row and then along the samples: entry `(n, c)` reads class `c`. -/
theorem idx_weight (n : Fin 16384) (c : Fin 1024) : idx_main_v37 (idx_main_v38 (ix2 n c)) = ix1 c :=
  funext fun a => Fin.ext (by match a with | ⟨0, _⟩ => rfl)

/-- Entry `(n, c)` of the reference's last elementwise stage is the weighted focal term of that entry, the weight
    being class `c`'s: after the zero word is read as `0` the stage is `lossW` operation for operation. -/
theorem val_main_v40_entry (X T : S16384x1024.Idx → EReal) (n : Fin 16384) (c : Fin 1024) :
    val_main_v40 (F := Ideal) X T (ix2 n c)
      = lossW (val_main_v19 (F := Ideal) T (ix1 c)) (X (ix2 n c)) (T (ix2 n c)) := by
  rw [val_main_v40_apply, val_main_v39_apply, val_main_v38_apply, val_main_v37_apply, val_main_v32_apply, idx_weight,
    val_main_v31_apply, val_main_cst_9_apply, val_main_v36_apply, val_main_v35_apply, val_main_cst_11_apply,
    val_main_v34_apply, val_main_v33_apply, val_main_cst_10_apply, val_main_v30_apply, val_main_v29_apply]
  simp only [val_main_v28_apply, val_main_v27_apply, val_main_v26_apply, val_main_v25_apply, val_main_v24_apply,
    val_main_v23_apply, val_main_v22_apply, val_main_v21_apply, val_main_v20_apply, val_main_cst_8_apply,
    Ideal.ofBits_def, Ideal.ofBits_zero_f32]
  rfl

/-- The result at its one index: zero plus the sum of the last elementwise stage over every entry, divided by the
    number of entries. -/
theorem val_main_v42_total (X T : S16384x1024.Idx → EReal) (i : S_.Idx) :
    val_main_v42 (F := Ideal) X T i
      = Ideal.div (0 + ∑ j : S16384x1024.Idx, val_main_v40 (F := Ideal) X T j) n24 := by
  rw [val_main_v42_apply, val_main_v41_apply, val_main_cst_13_apply, val_main_cst_12_apply, Ideal.ofBits_def,
    Ideal.ofBits_def, Ideal.ofBits_zero_f32, Ideal.hostDivf_def]

end Cert.Focal

end
-- ==== Proof.RefWeights.lean ====
/-
  The reference's class weights are `weights` of its histogram.

  From the per-class sums to the weights the reference applies, class by class: the comparison with zero, the power
  `β ^ count`, its complement, the choice of `10⁻⁶` where the count is zero, the quotient `(1 - β) / ·`, the sum of the
  quotients over the classes, the normalisation by it and the factor 1024.  `weights` is the same composition of the
  same operations, so the two sides are one term once the stages are spelt out.
-/
import proofs.«118615_j52853867545034_2_alg».proof.Proof.RefRead
import proofs.«118615_j52853867545034_2_alg».proof.Proof.Loss

noncomputable section

namespace Cert.Focal

open Idealize.ShloMosaic Cert.ReferenceIdeal Cert.ReferenceIdeal.Read

/-- The reference's weight vector is `weights` applied to its histogram of the labels. -/
theorem val_main_v19_eq_weights (T : S16384x1024.Idx → EReal) :
    val_main_v19 (F := Ideal) T
      = weights Gen.bcast_S_S1024 Gen.reducesTo_S1024_S_d0 Gen.h_S_ (val_main_v5 (F := Ideal) T) := by
  unfold val_main_v19 val_main_v18 val_main_v17 val_main_v16 val_main_v15 val_main_v14 val_main_v13 val_main_v12
    val_main_v11 val_main_v10 val_main_v9 val_main_v8 val_main_v7 val_main_v6 val_main_call0_v1 val_main_call0_v0
    val_main_cst_1 val_main_cst_2 val_main_cst_3 val_main_cst_4 val_main_cst_5 val_main_cst_6 val_main_cst_7 weights
  rfl

end Cert.Focal

end
-- ==== Proof.Scalars.lean ====
/-
  The scalar facts about the focal term: the literals as real numbers, the cross entropy and the focal factor
  of a real logit and a binary label as non-negative reals, and the two ways of writing one weighted term.
-/
import proofs.«118615_j52853867545034_2_alg».proof.Proof.Loss
import Mathlib.Analysis.SpecialFunctions.Pow.Real
import Mathlib.Analysis.SpecialFunctions.Log.Basic

noncomputable section

namespace Cert.Focal

open Idealize.ShloMosaic

/-- The word of `+0.0` denotes `0`. -/
theorem zeroL_eq : zeroL = 0 := Ideal.ofBits_zero_f32

/-- The word `0x3F000000` denotes the real `1/2`. -/
theorem halfL_eq : halfL = (((1 : ℝ) / 2 : ℝ) : EReal) := by
  simp [Ideal.ofBits, Ideal.ieee, -EReal.coe_mul]; norm_num

/-- The word `0x3F800000` denotes `1`. -/
theorem oneL_eq : oneL = 1 := by
  simp [Ideal.ofBits, Ideal.ieee, -EReal.coe_mul]; norm_num

/-- The word `0x40000000` denotes the real `2`. -/
theorem twoL_eq : twoL = ((2 : ℝ) : EReal) := by
  simp [Ideal.ofBits, Ideal.ieee, -EReal.coe_mul]; norm_num

/-- The word `0x4B800000` denotes `2²⁴ = 16777216`. -/
theorem n24_eq : n24 = ((16777216 : ℝ) : EReal) := by
  simp [Ideal.ofBits, Ideal.ieee, -EReal.coe_mul]; norm_num

/-- The embedding of the reals is monotone, so it commutes with `max`. -/
theorem coe_max (a b : ℝ) : ((max a b : ℝ) : EReal) = max (a : EReal) (b : EReal) :=
  EReal.coe_strictMono.monotone.map_max

/-- For a real `x`, `log (1 + exp (-|x|))` is the real logarithm of a number above `1`. -/
theorem softplus_coe (x : ℝ) :
    Ideal.log1p (Ideal.exp (-(max (x : EReal) (-(x : EReal)))))
      = ((Real.log (1 + Real.exp (-(max x (-x)))) : ℝ) : EReal) := by
  have hpos : ¬ (1 + Real.exp (-(max x (-x))) ≤ 0) := not_le.mpr (by positivity)
  rw [← EReal.coe_neg, ← coe_max, ← EReal.coe_neg, Ideal.exp_coe, Ideal.log1p, ← EReal.coe_one,
    ← EReal.coe_add, Ideal.log_coe, if_neg hpos]

theorem softplus_nonneg (x : ℝ) : 0 ≤ Real.log (1 + Real.exp (-(max x (-x)))) :=
  Real.log_nonneg (by linarith [Real.exp_pos (-(max x (-x)))])

/-- The cross entropy of a real logit and a binary label is a non-negative real: `max x 0 - x t` is `max x 0`
    for `t = 0` and `max x 0 - x` for `t = 1`, both non-negative, and the logarithm is of a number above `1`. -/
theorem bce_coe (x : ℝ) (t : EReal) (ht : t = 0 ∨ t = 1) : ∃ b : ℝ, 0 ≤ b ∧ bce (x : EReal) t = (b : EReal) := by
  have hmax : max (x : EReal) 0 = ((max x 0 : ℝ) : EReal) := by rw [coe_max, EReal.coe_zero]
  rcases ht with rfl | rfl
  · refine ⟨max x 0 + Real.log (1 + Real.exp (-(max x (-x)))),
      add_nonneg (le_max_right _ _) (softplus_nonneg x), ?_⟩
    unfold bce
    rw [softplus_coe, mul_zero, sub_zero, hmax, EReal.coe_add]
  · refine ⟨(max x 0 - x) + Real.log (1 + Real.exp (-(max x (-x)))),
      add_nonneg (sub_nonneg.mpr (le_max_left _ _)) (softplus_nonneg x), ?_⟩
    unfold bce
    rw [softplus_coe, mul_one, hmax, EReal.coe_add, EReal.coe_sub]

/-- One minus the probability of the true label is a real. -/
theorem om_coe (x : ℝ) (t : EReal) (ht : t = 0 ∨ t = 1) : ∃ o : ℝ, om (x : EReal) t = (o : EReal) := by
  obtain ⟨b, _, hb⟩ := bce_coe x t ht
  refine ⟨1 - Real.exp (-b), ?_⟩
  unfold om
  rw [hb, oneL_eq, ← EReal.coe_neg, Ideal.exp_coe, ← EReal.coe_one, ← EReal.coe_sub]

/-- The square of a real as a power with exponent `2` is the product with itself. -/
theorem pow_two_coe (o : ℝ) : Ideal.pow (o : EReal) twoL = (o : EReal) * (o : EReal) := by
  rw [twoL_eq, Ideal.pow_coe_coe, ← EReal.coe_mul]
  congr 1
  show o ^ (2 : ℝ) = o * o
  rw [Real.rpow_two, sq]

/-- The reference's weighted term is the weight times the kernel's term: the same five factors, regrouped. -/
theorem lossW_eq (w : EReal) (x : ℝ) (t : EReal) (ht : t = 0 ∨ t = 1) :
    lossW w (x : EReal) t = w * loss (x : EReal) t := by
  obtain ⟨o, ho⟩ := om_coe x t ht
  unfold lossW loss
  rw [ho, pow_two_coe]
  simp only [mul_assoc]

/-- The focal term of a real logit and a binary label is a product of non-negative reals. -/
theorem loss_nonneg (x : ℝ) (t : EReal) (ht : t = 0 ∨ t = 1) : 0 ≤ loss (x : EReal) t := by
  obtain ⟨o, ho⟩ := om_coe x t ht
  obtain ⟨b, hb0, hb⟩ := bce_coe x t ht
  unfold loss
  rw [ho, hb, halfL_eq, ← EReal.coe_mul, ← EReal.coe_mul, ← EReal.coe_mul, EReal.coe_nonneg]
  exact mul_nonneg (mul_nonneg (by norm_num) (mul_self_nonneg o)) hb0

end Cert.Focal

end
-- ==== Proof.Counting.lean ====
/-
  Counting binary labels.

  A family `t k` of extended reals each equal to `0` or `1` is a family of reals; its sum is the number of ones.
  Summing `1` over the members that carry a given integer code — `0` for the label `0`, `1` for the label `1` —
  gives the number of zeros `N - ∑ t` for the code `0`, the number of ones `∑ t` for the code `1`, and `0` for any
  other code.  Sums of extended reals that are reals are sums of reals, and a sum over a flat range of length
  `m n` is the double sum over the quotient and the remainder by `n`.
-/
import Mathlib.Data.EReal.Operations
import Mathlib.Algebra.BigOperators.Fin
import Mathlib.Logic.Equiv.Fin.Basic

noncomputable section

open scoped BigOperators

namespace Cert.Focal

/-- The embedding of the reals commutes with finite sums. -/
theorem coe_sum {ι : Type*} (s : Finset ι) (f : ι → ℝ) : ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

/-- A binary label is a real. -/
theorem binary_coe {t : EReal} (ht : t = 0 ∨ t = 1) : t = ((t.toReal : ℝ) : EReal) := by
  rcases ht with rfl | rfl
  · rw [EReal.toReal_zero, EReal.coe_zero]
  · rw [EReal.toReal_one, EReal.coe_one]

/-- The sum of binary labels is a real. -/
theorem sum_binary_coe {ι : Type*} [Fintype ι] (t : ι → EReal) (ht : ∀ k, t k = 0 ∨ t k = 1) :
    ∑ k, t k = ((∑ k, (t k).toReal : ℝ) : EReal) := by
  rw [coe_sum]
  exact Finset.sum_congr rfl fun k _ => binary_coe (ht k)

/-- COUNTING: with every label `0` or `1` and `code` sending them to the integers `0` and `1`, the number of
    members whose code is `r` is `N - ∑ t` for `r = 0`, `∑ t` for `r = 1`, and `0` otherwise, `N` the number of members. -/
theorem count_code {ι : Type*} [Fintype ι] (t : ι → EReal) (ht : ∀ k, t k = 0 ∨ t k = 1)
    (code : EReal → ℤ) (h0 : code 0 = 0) (h1 : code 1 = 1) (N : ℝ) (hN : (Fintype.card ι : ℝ) = N) (r : ℕ) :
    ∑ k, (if code (t k) = (r : ℤ) then (1 : EReal) else 0)
      = if r = 0 then (N : EReal) - ∑ k, t k else if r = 1 then ∑ k, t k else 0 := by
  by_cases hr0 : r = 0
  · subst hr0
    rw [if_pos rfl, sum_binary_coe t ht, ← EReal.coe_sub, ← hN]
    have hcard : (Fintype.card ι : ℝ) = ∑ _k : ι, (1 : ℝ) := by
      rw [Finset.sum_const, Finset.card_univ, nsmul_eq_mul, mul_one]
    rw [hcard, ← Finset.sum_sub_distrib, coe_sum]
    refine Finset.sum_congr rfl fun k _ => ?_
    rcases ht k with h | h
    · rw [h, h0, if_pos Nat.cast_zero.symm, EReal.toReal_zero, sub_zero, EReal.coe_one]
    · rw [h, h1, if_neg (by rw [Nat.cast_zero]; exact one_ne_zero), EReal.toReal_one, sub_self, EReal.coe_zero]
  · rw [if_neg hr0]
    by_cases hr1 : r = 1
    · subst hr1
      rw [if_pos rfl]
      refine Finset.sum_congr rfl fun k _ => ?_
      rcases ht k with h | h
      · rw [h, h0, if_neg (by rw [Nat.cast_one]; exact zero_ne_one)]
      · rw [h, h1, if_pos Nat.cast_one.symm]
    · rw [if_neg hr1]
      refine Finset.sum_eq_zero fun k _ => ?_
      rcases ht k with h | h
      · rw [h, h0, if_neg (by omega)]
      · rw [h, h1, if_neg (by omega)]

/-- A flat range of length `m n` is the product of the quotients and the remainders by `n`. -/
def splitEquiv (m n N : ℕ) (h : N = m * n) : Fin N ≃ Fin m × Fin n :=
  (finCongr h).trans finProdFinEquiv.symm

theorem splitEquiv_fst (m n N : ℕ) (h : N = m * n) (e : Fin N) : ((splitEquiv m n N h e).1 : ℕ) = e.val / n := rfl
theorem splitEquiv_snd (m n N : ℕ) (h : N = m * n) (e : Fin N) : ((splitEquiv m n N h e).2 : ℕ) = e.val % n := rfl

/-- A sum over the flat range is the double sum, remainders outermost. -/
theorem sum_split {M : Type*} [AddCommMonoid M] (m n N : ℕ) (h : N = m * n) (g : Fin m → Fin n → M) :
    ∑ e : Fin N, g (splitEquiv m n N h e).1 (splitEquiv m n N h e).2 = ∑ b : Fin n, ∑ a : Fin m, g a b := by
  rw [Equiv.sum_comp (splitEquiv m n N h) fun p => g p.1 p.2, Fintype.sum_prod_type, Finset.sum_comm]

end Cert.Focal

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.Hist.lean ====
/-
  The reference's histogram of the labels is the vector of per-class counts.

  The reference turns each label into a 32-bit integer, lists the 2²⁴ integers row by row as a column of positions,
  and adds a one at each position into a vector of 1024 zeros.  Read at class `r` the result is the number of
  labels whose integer is `r`.  The labels being `0` or `1`, their integers are `0` and `1`: class 0 counts the
  zeros (the number of entries minus the sum of the labels), class 1 the ones (the sum), every other class nothing.
-/
import proofs.«118615_j52853867545034_2_alg».proof.Proof.RefRead
import proofs.«118615_j52853867545034_2_alg».proof.Proof.Loss
import proofs.«118615_j52853867545034_2_alg».proof.Proof.Scalars
import proofs.«118615_j52853867545034_2_alg».proof.Proof.Counting
import proofs.«118615_j52853867545034_2_alg».proof.Proof.LibScatterRows

noncomputable section

open scoped BigOperators

namespace Cert.Focal

open Idealize.ShloMosaic Idealize.ShloMosaic.ValueIdx Cert.ReferenceIdeal Cert.ReferenceIdeal.Read

/-- The integer a label is turned into: the nearest integer toward zero, as a signed 32-bit word. -/
def labelCode (x : EReal) : ℤ := (Ideal.fptosi 32 x).toInt

/-- The integer of the label `0` is `0`. -/
theorem labelCode_zero : labelCode 0 = 0 := by
  have h : Ideal.toIntClamped (-((2 ^ (32 - 1) : ℕ) : ℤ)) (((2 ^ (32 - 1) : ℕ) : ℤ) - 1) ((0 : ℝ) : EReal) = 0 := by
    rw [Ideal.toIntClamped_coe, if_pos le_rfl, Int.floor_zero]; decide
  unfold labelCode Ideal.fptosi
  rw [← EReal.coe_zero, h]; rfl

/-- The integer of the label `1` is `1`. -/
theorem labelCode_one : labelCode 1 = 1 := by
  have h : Ideal.toIntClamped (-((2 ^ (32 - 1) : ℕ) : ℤ)) (((2 ^ (32 - 1) : ℕ) : ℤ) - 1) ((1 : ℝ) : EReal) = 1 := by
    rw [Ideal.toIntClamped_coe, if_pos zero_le_one, Int.floor_one]; decide
  unfold labelCode Ideal.fptosi
  rw [← EReal.coe_one, h]; rfl

/-- The flat position `e` of the label column is entry `(e / 1024, e % 1024)` of the label array. -/
theorem idx_flat (e : Fin 16777216) :
    idx_main_v1 (idx_main_v4 (ix2 e (0 : Fin 1)))
      = ix2 (splitEquiv 16384 1024 16777216 rfl e).1 (splitEquiv 16384 1024 16777216 rfl e).2 :=
  funext fun a => Fin.ext (by match a with | ⟨0, _⟩ => rfl | ⟨1, _⟩ => rfl)

/-- The scatter-add of a vector of updates into 1024 classes at a column of positions, read at class `r`: the
    operand's entry plus the updates whose position is `r`. -/
theorem scatter_read (x : S1024.Idx → EReal) (idx : IVec S16777216x1 32) (upd : S16777216.Idx → EReal)
    (r : Fin 1024) :
    Host.scatterAdd (F := Ideal) (φ := .f32) scatter_S1024_S16777216x1_S16777216_n_0_0_1 x idx upd (ix1 r)
      = x (ix1 r)
        + ∑ e : Fin 16777216, if (idx (ix2 e (0 : Fin 1))).toInt = (r.val : Int) then upd (ix1 e) else 0 :=
  Cert.Lib.ScatterRows.scatterAdd_vec_apply (N := 1024) (R := 16777216)
    Gen.scatter_S1024_S16777216x1_S16777216_n_0_0_1_wf x idx upd r

/-- The reference's histogram read at class `r`: the zero it starts from plus a one for every position whose
    integer is `r`. -/
theorem val_main_v5_read (T : S16384x1024.Idx → EReal) (r : Fin 1024) :
    val_main_v5 (F := Ideal) T (ix1 r)
      = val_main_v3 (F := Ideal) (ix1 r)
        + ∑ e : Fin 16777216, if (val_main_v4 (F := Ideal) T (ix2 e (0 : Fin 1))).toInt = (r.val : Int)
            then val_main_v2 (F := Ideal) (ix1 e) else 0 :=
  scatter_read (val_main_v3 (F := Ideal)) (val_main_v4 (F := Ideal) T) (val_main_v2 (F := Ideal)) r

/-- The vector the sums are added into is zero. -/
theorem val_main_v3_zero (i : S1024.Idx) : val_main_v3 (F := Ideal) i = 0 := by
  rw [val_main_v3_apply, val_main_cst_0_apply, Ideal.ofBits_def, Ideal.ofBits_zero_f32]

/-- One term of the histogram's sum: a one if the label at the flat position has integer `r`. -/
theorem hist_term (T : S16384x1024.Idx → EReal) (r : Fin 1024) (e : Fin 16777216) :
    (if (val_main_v4 (F := Ideal) T (ix2 e (0 : Fin 1))).toInt = (r.val : Int)
        then val_main_v2 (F := Ideal) (ix1 e) else 0)
      = if labelCode (T (ix2 (splitEquiv 16384 1024 16777216 rfl e).1 (splitEquiv 16384 1024 16777216 rfl e).2))
            = ((r.val : ℕ) : ℤ) then (1 : EReal) else 0 := by
  rw [val_main_v4_apply, val_main_v1_apply, val_main_v0_apply, idx_flat, val_main_v2_apply, val_main_cst_apply,
    Ideal.ofBits_def]
  exact if_congr Iff.rfl oneL_eq rfl

/-- The counts at class `r`, spelt out. -/
theorem counts_ix1 (T : Sxt.Idx → EReal) (r : Fin 1024) :
    counts T (ix1 r) = if r.val = 0 then n24 - onesTotal T else if r.val = 1 then onesTotal T else 0 := rfl

theorem onesTotal_eq (T : Sxt.Idx → EReal) : onesTotal T = ∑ c : Fin 1024, ∑ n : Fin 16384, T (ix2 n c) := rfl

/-- The histogram at class `r` is the count of class `r`. -/
theorem val_main_v5_counts_at (T : S16384x1024.Idx → EReal) (hT : ∀ i, T i = 0 ∨ T i = 1) (r : Fin 1024) :
    val_main_v5 (F := Ideal) T (ix1 r) = counts T (ix1 r) := by
  refine (val_main_v5_read T r).trans ?_
  rw [val_main_v3_zero, zero_add]
  refine (Finset.sum_congr rfl fun e _ => hist_term T r e).trans ?_
  refine (count_code (fun e : Fin 16777216 =>
      T (ix2 (splitEquiv 16384 1024 16777216 rfl e).1 (splitEquiv 16384 1024 16777216 rfl e).2))
    (fun e => hT _) labelCode labelCode_zero labelCode_one 16777216
    (by rw [Fintype.card_fin]; norm_num) r.val).trans ?_
  rw [sum_split 16384 1024 16777216 rfl fun a b => T (ix2 a b), counts_ix1, onesTotal_eq, n24_eq]

/-- THE HISTOGRAM: with every label `0` or `1`, the reference's per-class sums are the counts. -/
theorem val_main_v5_eq_counts (T : S16384x1024.Idx → EReal) (hT : ∀ i, T i = 0 ∨ T i = 1) :
    val_main_v5 (F := Ideal) T = counts T := by
  funext i
  obtain ⟨r, rfl⟩ : ∃ r : Fin 1024, i = ix1 r := ⟨i 0, eq_ix1 i⟩
  exact val_main_v5_counts_at T hT r

end Cert.Focal

end
-- ==== Proof.Regroup.lean ====
/-
  The class weight comes out of the sum over the samples.  On the extended reals `w * (a + b) = w * a + w * b`
  holds for non-negative `a`, `b` and any `w`, infinite ones included; the focal terms are non-negative, so
  a weight multiplied into every entry of a column is the weight times the column's sum.
-/
import proofs.«118615_j52853867545034_2_alg».proof.Proof.Loss
import proofs.«118615_j52853867545034_2_alg».proof.Proof.Scalars
import Mathlib.Data.EReal.Operations

noncomputable section

open scoped BigOperators

namespace Cert.Focal

open Idealize.ShloMosaic Idealize.ShloMosaic.ValueIdx

/-- A factor distributes over a finite sum of non-negative extended reals: by induction on the index set, one
    term at a time, the rest of the sum being non-negative too. -/
theorem mul_sum_of_nonneg {ι : Type*} (s : Finset ι) (w : EReal) (a : ι → EReal) (ha : ∀ k ∈ s, 0 ≤ a k) :
    w * ∑ k ∈ s, a k = ∑ k ∈ s, w * a k := by
  classical
  induction s using Finset.induction_on with
  | empty => simp
  | insert b s hb ih =>
    have hs : ∀ k ∈ s, 0 ≤ a k := fun k hk => ha k (Finset.mem_insert_of_mem hk)
    rw [Finset.sum_insert hb, Finset.sum_insert hb,
      EReal.left_distrib_of_nonneg (ha b (Finset.mem_insert_self b s)) (Finset.sum_nonneg hs), ih hs]

/-- The sum over all entries of the weighted terms, the weight of an entry being that of its class, is the sum over
    the classes of the weight times the class's sum of unweighted terms: split the index into sample and class,
    exchange the two sums, write each weighted term as the weight times the term, and take the weight out of the
    inner sum, whose terms are non-negative. -/
theorem weighted_sum_regroup (W : Scls.Idx → EReal) (X T : Sxt.Idx → EReal)
    (hX : ∀ i, ∃ r : ℝ, X i = (r : EReal)) (hT : ∀ i, T i = 0 ∨ T i = 1) :
    ∑ j : Sxt.Idx, lossW (W (ix1 (j 1))) (X j) (T j) = ∑ c : Fin 1024, W (ix1 c) * colLoss X T c := by
  rw [sum_idx2, Finset.sum_comm]
  refine Finset.sum_congr rfl fun c _ => ?_
  unfold colLoss
  rw [mul_sum_of_nonneg]
  · refine Finset.sum_congr rfl fun n _ => ?_
    obtain ⟨r, hr⟩ := hX (ix2 n c)
    show lossW (W (ix1 c)) (X (ix2 n c)) (T (ix2 n c)) = _
    rw [hr]
    exact lossW_eq _ r _ (hT (ix2 n c))
  · intro n _
    obtain ⟨r, hr⟩ := hX (ix2 n c)
    rw [hr]
    exact loss_nonneg r _ (hT (ix2 n c))

end Cert.Focal

end
-- ==== Proof.RefValue.lean ====
/-
  The reference computes the mean class-balanced focal loss `mid`.

  Its result is the total of the weighted focal terms divided by the number of entries; the weight of an entry is
  `weights` of the label histogram at the entry's class, and the histogram of binary labels is the count vector.
  Taking each class's weight out of that class's sum over the samples gives the weighted sum of the column sums.
-/
import proofs.«118615_j52853867545034_2_alg».proof.Proof.RefRead
import proofs.«118615_j52853867545034_2_alg».proof.Proof.Loss
import proofs.«118615_j52853867545034_2_alg».proof.Proof.RefEntry
import proofs.«118615_j52853867545034_2_alg».proof.Proof.RefWeights
import proofs.«118615_j52853867545034_2_alg».proof.Proof.Hist
import proofs.«118615_j52853867545034_2_alg».proof.Proof.Regroup

noncomputable section

open scoped BigOperators

namespace Cert.Focal

open Idealize.ShloMosaic Idealize.ShloMosaic.ValueIdx Cert.ReferenceIdeal Cert.ReferenceIdeal.Read

/-- One entry of the reference's last elementwise stage, with the weight written through the counts. -/
theorem val_main_v40_counts (X T : Sxt.Idx → EReal) (hT : ∀ i, T i = 0 ∨ T i = 1) (j : Sxt.Idx) :
    val_main_v40 (F := Ideal) X T j
      = lossW (weights Gen.bcast_S_S1024 Gen.reducesTo_S1024_S_d0 Gen.h_S_ (counts T) (ix1 (j 1))) (X j) (T j) := by
  obtain ⟨n, c, rfl⟩ : ∃ (n : Fin 16384) (c : Fin 1024), j = ix2 n c := ⟨j 0, j 1, eq_ix2 j⟩
  have h := val_main_v40_entry X T n c
  rw [val_main_v19_eq_weights, val_main_v5_eq_counts T hT] at h
  exact h

/-- The same with the weight vector named, so that nothing later looks inside the weights. -/
theorem val_main_v40_weighted (X T : Sxt.Idx → EReal) (hT : ∀ i, T i = 0 ∨ T i = 1) (W : Scls.Idx → EReal)
    (hW : W = weights Gen.bcast_S_S1024 Gen.reducesTo_S1024_S_d0 Gen.h_S_ (counts T)) (j : Sxt.Idx) :
    val_main_v40 (F := Ideal) X T j = lossW (W (ix1 (j 1))) (X j) (T j) := by
  subst hW
  exact val_main_v40_counts X T hT j

/-- The total of the reference's last elementwise stage, entry by entry. -/
theorem sum_val_main_v40_entries (X T : Sxt.Idx → EReal)
    (hT : ∀ i, T i = 0 ∨ T i = 1) (W : Scls.Idx → EReal)
    (hW : W = weights Gen.bcast_S_S1024 Gen.reducesTo_S1024_S_d0 Gen.h_S_ (counts T)) :
    ∑ j : Sxt.Idx, val_main_v40 (F := Ideal) X T j = ∑ j : Sxt.Idx, lossW (W (ix1 (j 1))) (X j) (T j) :=
  Finset.sum_congr rfl fun j _ => val_main_v40_weighted X T hT W hW j

/-- The total of the reference's last elementwise stage is the weighted sum of the column sums. -/
theorem sum_val_main_v40 (X T : Sxt.Idx → EReal) (hX : ∀ i, ∃ r : ℝ, X i = (r : EReal))
    (hT : ∀ i, T i = 0 ∨ T i = 1) (W : Scls.Idx → EReal)
    (hW : W = weights Gen.bcast_S_S1024 Gen.reducesTo_S1024_S_d0 Gen.h_S_ (counts T)) :
    ∑ j : Sxt.Idx, val_main_v40 (F := Ideal) X T j = ∑ c : Fin 1024, W (ix1 c) * colLoss X T c :=
  (sum_val_main_v40_entries X T hT W hW).trans (weighted_sum_regroup W X T hX hT)

/-- The mean loss at its one index, spelt out. -/
theorem mid_apply (X T : Sxt.Idx → EReal) (i : Ssc.Idx) :
    mid Gen.bcast_S_S1024 Gen.reducesTo_S1024_S_d0 Gen.h_S_ X T i
      = Ideal.div (0 + ∑ c : Fin 1024,
          weights Gen.bcast_S_S1024 Gen.reducesTo_S1024_S_d0 Gen.h_S_ (counts T) (ix1 c) * colLoss X T c) n24 := rfl

/-- THE REFERENCE'S VALUE: for finite logits and binary labels the reference returns `mid`. -/
theorem ref_eq_mid (X T : Sxt.Idx → EReal)
    (hX : ∀ i, ∃ r : ℝ, X i = (r : EReal)) (hT : ∀ i, T i = 0 ∨ T i = 1) :
    Cert.ReferenceIdeal.Read.val_main_v42 (F := Ideal) X T
      = mid Cert.ReferenceIdeal.Gen.bcast_S_S1024 Cert.ReferenceIdeal.Gen.reducesTo_S1024_S_d0
          Cert.ReferenceIdeal.Gen.h_S_ X T := by
  funext i
  refine (val_main_v42_total X T i).trans ?_
  refine Eq.trans ?_ (mid_apply X T i).symm
  refine congrArg (fun s => Ideal.div (0 + s) n24) ?_
  exact sum_val_main_v40 X T hX hT (weights Gen.bcast_S_S1024 Gen.reducesTo_S1024_S_d0 Gen.h_S_ (counts T)) rfl

end Cert.Focal

end
-- ==== Proof.Domain.lean ====
/-
  The precondition, decoded: the three all-reductions of the printed predicate say that every logit and every
  label has finite magnitude, so is a real number, and that every label equals `0` or `1`.
-/
import proofs.«118615_j52853867545034_2_alg».proof.Proof.Loss
import proofs.«118615_j52853867545034_2_alg».proof.Proof.Scalars
import proofs.«118615_j52853867545034_2_alg».proof.Pre_finite_inputs
import proofs.«118615_j52853867545034_2_alg».proof.Proof.Gen.Pre_finite_inputs
import Idealize.ShloMosaic.Lib.ReduceAll

noncomputable section

namespace Cert.Focal

open Idealize.ShloMosaic Idealize.ShloMosaic.ValueIdx

/-- A scalar has one index. -/
instance subsingleton_scalar_idx : Subsingleton Cert.Pre_finite_inputs.S_.Idx :=
  ⟨fun _ _ => funext fun d => d.elim0⟩

/-- The word `0x7F800000` denotes `+∞`. -/
theorem infL_eq : Ideal.ofBits .f32 0x7F800000#32 = ⊤ := by
  simp [Ideal.ofBits, Ideal.ieee]

/-- A comparison bit is `1` exactly when the comparison holds. -/
theorem ofBool_eq_one (b : Bool) : BitVec.ofBool b = 1#1 ↔ b = true := by cases b <;> decide

/-- An extended real whose magnitude is below `+∞` is a real number. -/
theorem real_of_abs_lt_top (x : EReal) (h : Ideal.cmp .olt (max x (-x)) ⊤ = 1#1) : ∃ r : ℝ, x = (r : EReal) := by
  unfold Ideal.cmp at h
  rw [ofBool_eq_one, decide_eq_true_eq] at h
  induction x using EReal.rec with
  | bot => simp at h
  | coe r => exact ⟨r, rfl⟩
  | top => simp at h

/-- Equality as a comparison bit. -/
theorem cmp_oeq_eq_one (a b : EReal) : Ideal.cmp .oeq a b = 1#1 ↔ a = b := by
  unfold Ideal.cmp
  rw [ofBool_eq_one, decide_eq_true_eq]

/-- The precondition gives: every logit is a real number and every label is `0` or `1` (the second reduction, the
    labels' finiteness, follows from the third and is not used). -/
theorem pre_decode (X T : Sxt.Idx → EReal)
    (h : Cert.Pre_finite_inputs.fn (F := Ideal) X T = fun _ => 1#1) :
    (∀ i, ∃ r : ℝ, X i = (r : EReal)) ∧ (∀ i, T i = 0 ∨ T i = 1) := by
  have e := congrFun h ValueIdx.ix0
  dsimp only [Cert.Pre_finite_inputs.fn, andi] at e
  rw [IntOp.andi_eq_one, IntOp.andi_eq_one] at e
  obtain ⟨⟨e1, -⟩, e3⟩ := e
  have hX := Host.reduce_andi_all _ _ _ _ _ e1
  have hB := Host.reduce_andi_all _ _ _ _ _ e3
  refine ⟨fun i => ?_, fun i => ?_⟩
  · have hi : Ideal.cmp .olt (max (X i) (-(X i))) (Ideal.ofBits .f32 0x7F800000#32) = 1#1 := hX i
    rw [infL_eq] at hi
    exact real_of_abs_lt_top _ hi
  · have hi : IntOp.ori (Ideal.cmp .oeq (T i) zeroL) (Ideal.cmp .oeq (T i) oneL) = 1#1 := hB i
    rw [IntOp.ori_eq_one, cmp_oeq_eq_one, cmp_oeq_eq_one, zeroL_eq, oneL_eq] at hi
    exact hi

end Cert.Focal

end
-- ==== Proof.lean ====
/-
  A fused class-balanced focal loss against its plain reference, over the extended reals.

  Inputs: logits `x` and labels `t`, both 16384 samples by 1024 classes; assumed: every entry finite and every label
  0 or 1.  The loss of one entry is `½ · (1 − e^{−b})² · b` with `b = max x 0 − x t + log (1 + e^{−|x|})` the binary
  cross entropy; class `c` is weighted by `w c`, a fixed function of the per-class label counts; the result is the
  mean of the weighted losses over all 2²⁴ entries.

  The reference histograms the labels by a scatter-add, multiplies the class weight into every entry, squares by a
  power, and takes the mean of everything.  The kernel sums the unweighted losses and the labels column by column
  (in two halves of the rows, eight row blocks each), and only then, on 1024 numbers, forms the counts — class 1 the
  label sum, class 0 its complement to 2²⁴, every other class empty —, the weights and the weighted mean.  With
  binary labels the two count vectors agree, a square is the power 2, and a weight comes out of a sum of
  non-negative terms; so both results are the one number `mid x t` (Loss.lean).  The frames are the generated ones;
  the ideal pass rewrote nothing.
-/
import proofs.«118615_j52853867545034_2_alg».proof.Defs
import proofs.«118615_j52853867545034_2_alg».proof.Proof.Gen.Kernel
import proofs.«118615_j52853867545034_2_alg».proof.Proof.Gen.Kernel.Skeleton
import proofs.«118615_j52853867545034_2_alg».proof.Proof.Gen.Kernel.Launch
import proofs.«118615_j52853867545034_2_alg».proof.Proof.Gen.Kernel.Points
import proofs.«118615_j52853867545034_2_alg».proof.Proof.Gen.Kernel.Frame
import proofs.«118615_j52853867545034_2_alg».proof.Proof.Gen.KernelIdeal
import proofs.«118615_j52853867545034_2_alg».proof.Proof.Gen.KernelIdeal.Skeleton
import proofs.«118615_j52853867545034_2_alg».proof.Proof.Gen.KernelIdeal.Launch
import proofs.«118615_j52853867545034_2_alg».proof.Proof.Gen.KernelIdeal.Points
import proofs.«118615_j52853867545034_2_alg».proof.Proof.Gen.KernelIdeal.Frame
import proofs.«118615_j52853867545034_2_alg».proof.Proof.Gen.ReferenceIdeal
import proofs.«118615_j52853867545034_2_alg».proof.Proof.Gen.Pre_finite_inputs
import proofs.«118615_j52853867545034_2_alg».proof.Proof.RefRun
import proofs.«118615_j52853867545034_2_alg».proof.Proof.RefRead
import proofs.«118615_j52853867545034_2_alg».proof.Proof.KernelValue
import proofs.«118615_j52853867545034_2_alg».proof.Proof.RefValue
import proofs.«118615_j52853867545034_2_alg».proof.Proof.Domain
import Idealize.ShloMosaic.Adequacy
import Idealize.ShloMosaic.Init

noncomputable section

namespace Cert.Proof

open Idealize.ShloMosaic Idealize.SL.Sem Cert.Focal

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the mean loss `mid` of the argument arrays: the kernel by regrouping its partial sums, the
    reference because finite logits and binary labels make its histogram the kernel's counts and let each class
    weight out of its column's sum. -/
theorem algebraic : Cert.algebraic_KernelIdeal_ReferenceIdeal := by
  intro m ρ m' ρ' hpre hagree
  refine ⟨fun c => mid Cert.KernelIdeal.Gen.bcast_S_S1024 Cert.KernelIdeal.Gen.reducesTo_S1024_S_d0 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Mean.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hT⟩ := pre_decode _ _ (hpre c)
  rw [Cert.ReferenceIdeal.Read.val_main_v42_eq, (hagree c).1, (hagree c).2]
  exact ref_eq_mid _ _ hX hT

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
